-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S192x128 : Shape := ⟨2, ![192, 128]⟩
abbrev S128 : Shape := ⟨1, ![128]⟩
abbrev S384x128 : Shape := ⟨2, ![384, 128]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : IVec S100000 32) (main_arg4 : FVec F S192x128 .f32) (main_arg5 : FVec F S128 .f32) (main_arg6 : FVec F S384x128 .f32) (main_arg7 : FVec F S128 .f32) (main_arg8 : FVec F S128x10 .f32) (main_arg9 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x128 .f32 := Host.absf main_arg4
  let main_cst_0 : FVec F S_ .f32 := constant S_ .f32 0x7F800000#32
  let main_v5 : FVec F S192x128 .f32 := broadcastInDim S192x128 ![] bcast_S_S192x128 main_cst_0
  let main_v6 : IVec S192x128 1 := cmpf .olt main_v4 main_v5
  let main_c_1 : IVec S_ 1 := constantI S_ 1 1#1
  let main_v7 : IVec S_ 1 := (fun x v => Host.reduce IntOp.andi x v reducesTo_S192x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg6
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg7 main_arg8 main_arg9 main_v13 main_v16
-- ==== Kernel.lean ====
abbrev S100000x64 : Shape := ⟨2, ![100000, 64]⟩
abbrev S1600000 : Shape := ⟨1, ![1600000]⟩
abbrev S100000 : Shape := ⟨1, ![100000]⟩
abbrev S192x128 : Shape := ⟨2, ![192, 128]⟩
abbrev S128 : Shape := ⟨1, ![128]⟩
abbrev S384x128 : Shape := ⟨2, ![384, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x192 : Shape := ⟨2, ![100000, 192]⟩
abbrev S1x128 : Shape := ⟨2, ![1, 128]⟩
abbrev S100000x128 : Shape := ⟨2, ![100000, 128]⟩
abbrev S4000x192 : Shape := ⟨2, ![4000, 192]⟩
abbrev S4000x128 : Shape := ⟨2, ![4000, 128]⟩
abbrev S1600000x128 : Shape := ⟨2, ![1600000, 128]⟩
abbrev S100000x384 : Shape := ⟨2, ![100000, 384]⟩
abbrev S4000x384 : Shape := ⟨2, ![4000, 384]⟩
abbrev S1000 : Shape := ⟨1, ![1000]⟩
abbrev S1000x128 : Shape := ⟨2, ![1000, 128]⟩
abbrev S1000x1 : Shape := ⟨2, ![1000, 1]⟩
abbrev S1x10 : Shape := ⟨2, ![1, 10]⟩
abbrev S1000x10 : Shape := ⟨2, ![1000, 10]⟩

abbrev nBuf : Space → Nat
  | .hbm => 125
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S192x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x192, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S100000x384, .f32⟩
  | .hbm, ⟨105, _⟩ => ⟨S1x128, .f32⟩
  | .hbm, ⟨106, _⟩ => ⟨S100000x128, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S1000, .f32⟩
  | .hbm, ⟨111, _⟩ => ⟨S100000x1, .i32⟩
  | .hbm, ⟨112, _⟩ => ⟨S1000, .f32⟩
  | .hbm, ⟨113, _⟩ => ⟨S_, .f32⟩
  | .hbm, ⟨114, _⟩ => ⟨S1000x128, .f32⟩
  | .hbm, ⟨115, _⟩ => ⟨S100000x1, .i32⟩
  | .hbm, ⟨116, _⟩ => ⟨S1000x128, .f32⟩
  | .hbm, ⟨117, _⟩ => ⟨S_, .f32⟩
  | .hbm, ⟨118, _⟩ => ⟨S1000, .f32⟩
  | .hbm, ⟨119, _⟩ => ⟨S1000, .f32⟩
  | .hbm, ⟨120, _⟩ => ⟨S1000x1, .f32⟩
  | .hbm, ⟨121, _⟩ => ⟨S1000x128, .f32⟩
  | .hbm, ⟨122, _⟩ => ⟨S1000x128, .f32⟩
  | .hbm, ⟨123, _⟩ => ⟨S1x10, .f32⟩
  | .hbm, ⟨124, _⟩ => ⟨S1000x10, .f32⟩
  | .local _ .vmem, ⟨0, _⟩ => ⟨S4000x192, .f32⟩
  | .local _ .vmem, ⟨1, _⟩ => ⟨S4000x192, .f32⟩
  | .local _ .vmem, ⟨2, _⟩ => ⟨S192x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x384, .f32⟩
  | .local _ .vmem, ⟨7, _⟩ => ⟨S4000x384, .f32⟩
  | .local _ .vmem, ⟨8, _⟩ => ⟨S384x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S1000x128, .f32⟩
  | .local _ .vmem, ⟨13, _⟩ => ⟨S128x10, .f32⟩
  | .local _ .vmem, ⟨14, _⟩ => ⟨S1x10, .f32⟩
  | .local _ .vmem, ⟨15, _⟩ => ⟨S1000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  shapeCasts_S128_S1x128 : S128.ShapeCasts S1x128
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S384x128_S384x128_0_0 : ∀ a, (![0, 0] : Fin 2 → Nat) a + S384x128.size a ≤ S384x128.size a
  h_S384x128 : 0 < S384x128.numel
  bcast_S_S1000 : S_.BroadcastsInDim S1000 (![] : Fin 0 → Fin S1000.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S10_S1x10 : S10.ShapeCasts S1x10
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x192_S192x128_S4000x128_1_0_0_1_n_n_wf : DotDims.WF S4000x192 S192x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x384_S384x128_S4000x128_1_0_0_1_n_n_wf : DotDims.WF S4000x384 S384x128 S4000x128 [1] [0] [0] [1] [] []
  scatter_S1000_S100000x1_S100000_n_0_0_1_wf : ScatterDims.WF S1000 S100000x1 S100000 [] [0] [0] 1
  scatter_S1000x128_S100000x1_S100000x128_1_0_0_1_wf : ScatterDims.WF S1000x128 S100000x1 S100000x128 [1] [0] [0] 1
  dot_S1000x128_S128x10_S1000x10_1_0_0_1_n_n_wf : DotDims.WF S1000x128 S128x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S100000x192.size a
  hwx0_0 : ∀ i : grid0.Coords, EltTy.bits .f32 = 32 ∨ (Rect.block (s := S100000x192) S4000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x384.size a ≤ S100000x384.size a
  hwx1_0 : ∀ i : grid1.Coords, EltTy.bits .f32 = 32 ∨ (Rect.block (s := S100000x384) S4000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S1000x128.size a
  hwx2_0 : ∀ i : grid2.Coords, EltTy.bits .f32 = 32 ∨ (Rect.block (s := S1000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x10.size a ≤ S1000x10.size a
  hwx2_3 : ∀ i : grid2.Coords, EltTy.bits .f32 = 32 ∨ (Rect.block (s := S1000x10) S1000x10.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

abbrev win0_0 : Pipeline.Window sig grid0 :=
  Pipeline.Window.ofSpec (Memref.whole main_v41) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S4000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v90) S1000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S1000x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S192x128 : Shape := ⟨2, ![192, 128]⟩
abbrev S128 : Shape := ⟨1, ![128]⟩
abbrev S384x128 : Shape := ⟨2, ![384, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x192 : Shape := ⟨2, ![100000, 192]⟩
abbrev S100000x128 : Shape := ⟨2, ![100000, 128]⟩
abbrev S1x128 : Shape := ⟨2, ![1, 128]⟩
abbrev S1600000x128 : Shape := ⟨2, ![1600000, 128]⟩
abbrev S100000x384 : Shape := ⟨2, ![100000, 384]⟩
abbrev S1000 : Shape := ⟨1, ![1000]⟩
abbrev S1000x128 : Shape := ⟨2, ![1000, 128]⟩
abbrev S1000x1 : Shape := ⟨2, ![1000, 1]⟩
abbrev S1000x10 : Shape := ⟨2, ![1000, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S100000, .i32⟩
  | 4 => ⟨S192x128, .f32⟩
  | 5 => ⟨S128, .f32⟩
  | 6 => ⟨S384x128, .f32⟩
  | 7 => ⟨S128, .f32⟩
  | 8 => ⟨S128x10, .f32⟩
  | 9 => ⟨S10, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S100000x192, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000x384, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S100000, .f32⟩
  | 119 => ⟨S_, .f32⟩
  | 120 => ⟨S1000, .f32⟩
  | 121 => ⟨S100000x1, .i32⟩
  | 122 => ⟨S1000, .f32⟩
  | 123 => ⟨S_, .f32⟩
  | 124 => ⟨S1000x128, .f32⟩
  | 125 => ⟨S100000x1, .i32⟩
  | 126 => ⟨S1000x128, .f32⟩
  | 127 => ⟨S_, .f32⟩
  | _ => ⟨S100000x64, .f32⟩

abbrev hbmTy0_1 (i : Nat) : BufTy := match i % 128 with
  | 0 => ⟨S1000, .f32⟩
  | 1 => ⟨S1000, .f32⟩
  | 2 => ⟨S1000x1, .f32⟩
  | 3 => ⟨S1000x128, .f32⟩
  | 4 => ⟨S1000x128, .f32⟩
  | 5 => ⟨S1000x10, .f32⟩
  | 6 => ⟨S1x10, .f32⟩
  | 7 => ⟨S1000x10, .f32⟩
  | 8 => ⟨S1000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call1_cst : Ref sig .tc := ⟨.hbm, 114, rfl⟩
abbrev main_call1_v0 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S_S1000 : S_.BroadcastsInDim S1000 (![] : Fin 0 → Fin S1000.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x128_S100000x128_1_0_0_1_n_n_wf : DotDims.WF S100000x192 S192x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  scatter_S1000_S100000x1_S100000_n_0_0_1_wf : ScatterDims.WF S1000 S100000x1 S100000 [] [0] [0] 1
  scatter_S1000x128_S100000x1_S100000x128_1_0_0_1_wf : ScatterDims.WF S1000x128 S100000x1 S100000x128 [1] [0] [0] 1
  dot_S1000x128_S128x10_S1000x10_1_0_0_1_n_n_wf : DotDims.WF S1000x128 S128x10 S1000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

class Facts : Prop extends Facts₀ where

variable [Facts]
-- ==== Proof.K.Body0.lean ====
/-
  Region 0 of the program: one launch of the rectified affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.Kernel.Launch
import proofs.«173950_j15281493639484_1_alg».proof.Proof.Gen.Kernel.Skeleton
import proofs.«173950_j15281493639484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where it is not
    fetched its block index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_x : Rect S4000x192 := Rect.unit (s := S4000x192) ![0, 0] S4000x192.size inb_S4000x192_S4000x192_0_0
abbrev r0_w : Rect S192x128 := Rect.unit (s := S192x128) ![0, 0] S192x128.size inb_S192x128_S192x128_0_0
abbrev r0_b : Rect S1x128 := Rect.unit (s := S1x128) ![0, 0] S1x128.size inb_S1x128_S1x128_0_0
abbrev r0_o : Rect S4000x128 := Rect.unit (s := S4000x128) ![0, 0] S4000x128.size inb_S4000x128_S4000x128_0_0

/-! ## What the body leaves in the output window's buffer -/

/-- The output's staging buffer after the body, from the three input blocks: its one store, through the whole block. -/
def out0_3 (x0 : Vec F S4000x192 .f32) (x1 : Vec F S192x128 .f32) (x2 : Vec F S1x128 .f32) : Vec F S4000x128 .f32 :=
  View.canon [⟨r0_o, k0_pay1 (View.ld x0 r0_x) (View.ld x1 r0_w) (View.ld x2 r0_b)⟩]

/-- The one store covers the buffer. -/
theorem cover0_3 (p0 : Vec F S4000x128 .f32) (y : S4000x128.Idx) :
    ∃ pc ∈ ([⟨r0_o, p0⟩] : List (View.Piece (Elt F) S4000x128 .f32)), y ∈ pc.1.set :=
  View.cover_of_tiled [⟨r0_o, p0⟩] S4000x128.size (by rfl) y

/-! ## The body's triple -/

set_option maxHeartbeats 1000000 in
/-- The body on whole staging buffers, the inputs' at given contents and the output's at anything, runs to the
    continuation with the inputs' as they were and the output's at `out0_3` of the inputs'. -/
theorem sound_kernel0 (c : Dev nD) (E : Set ℕ) (i : grid0.Coords) (arg1 : Memref sig .tc .vmem S4000x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The data of this launch on core `c`: the arrays as the region finds them; after the body at point `t` each input's
    buffer at its block and the output's at `out0_3` of the input blocks; the invariant the untouched rest; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of the program: one launch of the rectified affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.Kernel.Launch
import proofs.«173950_j15281493639484_1_alg».proof.Proof.Gen.Kernel.Skeleton
import proofs.«173950_j15281493639484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is not
    fetched its block index has not moved since the last fetch. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one the whole buffer -/

abbrev r1_x : Rect S4000x384 := Rect.unit (s := S4000x384) ![0, 0] S4000x384.size inb_S4000x384_S4000x384_0_0
abbrev r1_w : Rect S384x128 := Rect.unit (s := S384x128) ![0, 0] S384x128.size inb_S384x128_S384x128_0_0
abbrev r1_b : Rect S1x128 := Rect.unit (s := S1x128) ![0, 0] S1x128.size inb_S1x128_S1x128_0_0
abbrev r1_o : Rect S4000x128 := Rect.unit (s := S4000x128) ![0, 0] S4000x128.size inb_S4000x128_S4000x128_0_0

/-! ## What the body leaves in the output window's buffer -/

/-- The output's staging buffer after the body, from the three input blocks: its one store, through the whole block. -/
def out1_3 (x0 : Vec F S4000x384 .f32) (x1 : Vec F S384x128 .f32) (x2 : Vec F S1x128 .f32) : Vec F S4000x128 .f32 :=
  View.canon [⟨r1_o, k1_pay1 (View.ld x0 r1_x) (View.ld x1 r1_w) (View.ld x2 r1_b)⟩]

/-- The one store covers the buffer. -/
theorem cover1_3 (p0 : Vec F S4000x128 .f32) (y : S4000x128.Idx) :
    ∃ pc ∈ ([⟨r1_o, p0⟩] : List (View.Piece (Elt F) S4000x128 .f32)), y ∈ pc.1.set :=
  View.cover_of_tiled [⟨r1_o, p0⟩] S4000x128.size (by rfl) y

/-! ## The body's triple -/

set_option maxHeartbeats 1000000 in
/-- The body on whole staging buffers, the inputs' at given contents and the output's at anything, runs to the
    continuation with the inputs' as they were and the output's at `out1_3` of the inputs'. -/
theorem sound_kernel1 (c : Dev nD) (E : Set ℕ) (i : grid1.Coords) (arg1 : Memref sig .tc .vmem S4000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The launch's proof data -/

/-- The data of this launch on core `c`: the arrays as the region finds them; after the body at point `t` each input's
    buffer at its block and the output's at `out1_3` of the input blocks; the invariant the untouched rest; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of the program: one launch of the affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.Kernel.Launch
import proofs.«173950_j15281493639484_1_alg».proof.Proof.Gen.Kernel.Skeleton
import proofs.«173950_j15281493639484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: where it is not
    fetched its block index has not moved since the last fetch. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one the whole buffer -/

abbrev r2_x : Rect S1000x128 := Rect.unit (s := S1000x128) ![0, 0] S1000x128.size inb_S1000x128_S1000x128_0_0
abbrev r2_w : Rect S128x10 := Rect.unit (s := S128x10) ![0, 0] S128x10.size inb_S128x10_S128x10_0_0
abbrev r2_b : Rect S1x10 := Rect.unit (s := S1x10) ![0, 0] S1x10.size inb_S1x10_S1x10_0_0
abbrev r2_o : Rect S1000x10 := Rect.unit (s := S1000x10) ![0, 0] S1000x10.size inb_S1000x10_S1000x10_0_0

/-! ## What the body leaves in the output window's buffer -/

/-- The output's staging buffer after the body, from the three input blocks: its one store, through the whole block. -/
def out2_3 (x0 : Vec F S1000x128 .f32) (x1 : Vec F S128x10 .f32) (x2 : Vec F S1x10 .f32) : Vec F S1000x10 .f32 :=
  View.canon [⟨r2_o, k2_pay1 (View.ld x0 r2_x) (View.ld x1 r2_w) (View.ld x2 r2_b)⟩]

/-- The one store covers the buffer. -/
theorem cover2_3 (p0 : Vec F S1000x10 .f32) (y : S1000x10.Idx) :
    ∃ pc ∈ ([⟨r2_o, p0⟩] : List (View.Piece (Elt F) S1000x10 .f32)), y ∈ pc.1.set :=
  View.cover_of_tiled [⟨r2_o, p0⟩] S1000x10.size (by rfl) y

/-! ## The body's triple -/

set_option maxHeartbeats 1000000 in
/-- The body on whole staging buffers, the inputs' at given contents and the output's at anything, runs to the
    continuation with the inputs' as they were and the output's at `out2_3` of the inputs'. -/
theorem sound_kernel2 (c : Dev nD) (E : Set ℕ) (i : grid2.Coords) (arg1 : Memref sig .tc .vmem S1000x128 .f32) (harg1 : arg1.IsWhole) (arg2 : Memref sig .tc .vmem S128x10 .f32) (harg2 : arg2.IsWhole)
    (arg3 : Memref sig .tc .vmem S1x10 .f32) (harg3 : arg3.IsWhole) (arg4 : Memref sig .tc .vmem S1000x10 .f32) (harg4 : arg4.IsWhole)
    (x0 : Vec F S1000x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out2_3 x0 x1 x2)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The launch's proof data -/

/-- The data of this launch on core `c`: the arrays as the region finds them; after the body at point `t` each input's
    buffer at its block and the output's at `out2_3` of the input blocks; the invariant the untouched rest; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: host stretch, region, host stretch, region, host stretch, region.

  The buffers' contents at each boundary between two items are a fold from the launch memory: a host stretch applies its
  operations; a region leaves its output array at what its launch's write-backs produce and every other buffer as it
  found it. Each region is a segment over the thread state "every unscoped buffer at the boundary's contents, the
  generator register at some state, nothing owed", each host stretch a segment over the same state, and the program is
  the run of the six segments. So every weakly fair execution terminates without a fault with every unscoped buffer at
  the last boundary's contents. No item writes an argument array, so each argument ends as launched; the result array
  ends at what the last region's launch leaves in it.
-/
import proofs.«173950_j15281493639484_1_alg».proof.Proof.Gen.Kernel.Launch
import proofs.«173950_j15281493639484_1_alg».proof.Proof.Gen.Kernel.Skeleton
import proofs.«173950_j15281493639484_1_alg».proof.Proof.Gen.Kernel.Points
import proofs.«173950_j15281493639484_1_alg».proof.Proof.Gen.Kernel.Regions
import proofs.«173950_j15281493639484_1_alg».proof.Proof.K.Body0
import proofs.«173950_j15281493639484_1_alg».proof.Proof.K.Body1
import proofs.«173950_j15281493639484_1_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the launch leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: every other buffer leaves as it entered (an input window's array is read,
    never written; a buffer that is no window's array is not touched). -/
theorem W2_keep (c : Dev nD) (b : Ref sig .tc) (hb : b ≠ main_v43) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b fun w e => h ⟨w, e⟩

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the launch leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: every other buffer leaves as it entered (an input window's array is read,
    never written; a buffer that is no window's array is not touched). -/
theorem W4_keep (c : Dev nD) (b : Ref sig .tc) (hb : b ≠ main_v78) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b fun w e => h ⟨w, e⟩

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the launch leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: every other buffer leaves as it entered (an input window's array is read,
    never written; a buffer that is no window's array is not touched). -/
theorem W6_keep (c : Dev nD) (b : Ref sig .tc) (hb : b ≠ main_v92) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl hb
  · exact W6_of_ne m ρ c b fun w e => h ⟨w, e⟩

/-! ## A buffer no item writes ends as launched -/

/-- A buffer that no host stretch writes and that is no region's output holds its launch contents at the end. -/
theorem W6_unwritten (c : Dev nD) (b : Ref sig .tc) (h0 : b ∉ hostOps0_W) (h1 : b ∉ hostOps1_W) (h2 : b ∉ hostOps2_W)
    (e0 : b ≠ main_v43) (e1 : b ≠ main_v78) (e2 : b ≠ main_v92) :
    W6 m ρ c (Proc.devRef .tc b) = m ((c : Thread nD τ).loc b) :=
  calc W6 m ρ c (Proc.devRef .tc b)
    _ = W5 m ρ c (Proc.devRef .tc b) := W6_keep m ρ c b e2
    _ = W4 m ρ c (Proc.devRef .tc b) := StableHlo.after_of_writes_sub hostOps2 _ hostOps2_writes h2
    _ = W3 m ρ c (Proc.devRef .tc b) := W4_keep m ρ c b e1
    _ = W2 m ρ c (Proc.devRef .tc b) := StableHlo.after_of_writes_sub hostOps1 _ hostOps1_writes h1
    _ = W1 m ρ c (Proc.devRef .tc b) := W2_keep m ρ c b e0
    _ = W0 m ρ c (Proc.devRef .tc b) := StableHlo.after_of_writes_sub hostOps0 _ hostOps0_writes h0
    _ = m ((c : Thread nD τ).loc b) := rfl

/-! ## The proof data family and the thread state -/

/-- No launch has a prefetched table. -/
abbrev adm : (p : Fin 3) → (pcfgs (F := F) p).Adm := fun p => (cfgs p).toPCfg_adm
/-- Every launch's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run, the result array and the argument arrays read off: the result at what region 2's launch leaves in
    it, each argument as launched. -/
theorem run_result : θ_run defs (onTc (τ := τ) (main (F := F))) ⟨m, fun _ => 0, ρ⟩ (fun r => ∀ c : Dev nD,
      r.2.mem ((c.tc : Thread nD τ).loc main_v92) = W6 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v92 (by decide)),
      (h c _ (mem_uc main_arg0 (by decide))).trans (W6_unwritten m ρ c main_arg0 (by decide) (by decide) (by decide) (by decide) (by decide) (by decide)),
      (h c _ (mem_uc main_arg1 (by decide))).trans (W6_unwritten m ρ c main_arg1 (by decide) (by decide) (by decide) (by decide) (by decide) (by decide)),
      (h c _ (mem_uc main_arg2 (by decide))).trans (W6_unwritten m ρ c main_arg2 (by decide) (by decide) (by decide) (by decide) (by decide) (by decide)),
      (h c _ (mem_uc main_arg3 (by decide))).trans (W6_unwritten m ρ c main_arg3 (by decide) (by decide) (by decide) (by decide) (by decide) (by decide)),
      (h c _ (mem_uc main_arg4 (by decide))).trans (W6_unwritten m ρ c main_arg4 (by decide) (by decide) (by decide) (by decide) (by decide) (by decide)),
      (h c _ (mem_uc main_arg5 (by decide))).trans (W6_unwritten m ρ c main_arg5 (by decide) (by decide) (by decide) (by decide) (by decide) (by decide)),
      (h c _ (mem_uc main_arg6 (by decide))).trans (W6_unwritten m ρ c main_arg6 (by decide) (by decide) (by decide) (by decide) (by decide) (by decide)),
      (h c _ (mem_uc main_arg7 (by decide))).trans (W6_unwritten m ρ c main_arg7 (by decide) (by decide) (by decide) (by decide) (by decide) (by decide)),
      (h c _ (mem_uc main_arg8 (by decide))).trans (W6_unwritten m ρ c main_arg8 (by decide) (by decide) (by decide) (by decide) (by decide) (by decide)),
      (h c _ (mem_uc main_arg9 (by decide))).trans (W6_unwritten m ρ c main_arg9 (by decide) (by decide) (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Hand

end
-- ==== Proof.KI.Body0.lean ====
/-
  Region 0 of the program: one launch of the rectified affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.KernelIdeal.Launch
import proofs.«173950_j15281493639484_1_alg».proof.Proof.Gen.KernelIdeal.Skeleton
import proofs.«173950_j15281493639484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where it is not
    fetched its block index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_x : Rect S4000x192 := Rect.unit (s := S4000x192) ![0, 0] S4000x192.size inb_S4000x192_S4000x192_0_0
abbrev r0_w : Rect S192x128 := Rect.unit (s := S192x128) ![0, 0] S192x128.size inb_S192x128_S192x128_0_0
abbrev r0_b : Rect S1x128 := Rect.unit (s := S1x128) ![0, 0] S1x128.size inb_S1x128_S1x128_0_0
abbrev r0_o : Rect S4000x128 := Rect.unit (s := S4000x128) ![0, 0] S4000x128.size inb_S4000x128_S4000x128_0_0

/-! ## What the body leaves in the output window's buffer -/

/-- The output's staging buffer after the body, from the three input blocks: its one store, through the whole block. -/
def out0_3 (x0 : Vec F S4000x192 .f32) (x1 : Vec F S192x128 .f32) (x2 : Vec F S1x128 .f32) : Vec F S4000x128 .f32 :=
  View.canon [⟨r0_o, k0_pay1 (View.ld x0 r0_x) (View.ld x1 r0_w) (View.ld x2 r0_b)⟩]

/-- The one store covers the buffer. -/
theorem cover0_3 (p0 : Vec F S4000x128 .f32) (y : S4000x128.Idx) :
    ∃ pc ∈ ([⟨r0_o, p0⟩] : List (View.Piece (Elt F) S4000x128 .f32)), y ∈ pc.1.set :=
  View.cover_of_tiled [⟨r0_o, p0⟩] S4000x128.size (by rfl) y

/-! ## The body's triple -/

set_option maxHeartbeats 1000000 in
/-- The body on whole staging buffers, the inputs' at given contents and the output's at anything, runs to the
    continuation with the inputs' as they were and the output's at `out0_3` of the inputs'. -/
theorem sound_kernel0 (c : Dev nD) (E : Set ℕ) (i : grid0.Coords) (arg1 : Memref sig .tc .vmem S4000x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The data of this launch on core `c`: the arrays as the region finds them; after the body at point `t` each input's
    buffer at its block and the output's at `out0_3` of the input blocks; the invariant the untouched rest; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of the program: one launch of the rectified affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.KernelIdeal.Launch
import proofs.«173950_j15281493639484_1_alg».proof.Proof.Gen.KernelIdeal.Skeleton
import proofs.«173950_j15281493639484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is not
    fetched its block index has not moved since the last fetch. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one the whole buffer -/

abbrev r1_x : Rect S4000x384 := Rect.unit (s := S4000x384) ![0, 0] S4000x384.size inb_S4000x384_S4000x384_0_0
abbrev r1_w : Rect S384x128 := Rect.unit (s := S384x128) ![0, 0] S384x128.size inb_S384x128_S384x128_0_0
abbrev r1_b : Rect S1x128 := Rect.unit (s := S1x128) ![0, 0] S1x128.size inb_S1x128_S1x128_0_0
abbrev r1_o : Rect S4000x128 := Rect.unit (s := S4000x128) ![0, 0] S4000x128.size inb_S4000x128_S4000x128_0_0

/-! ## What the body leaves in the output window's buffer -/

/-- The output's staging buffer after the body, from the three input blocks: its one store, through the whole block. -/
def out1_3 (x0 : Vec F S4000x384 .f32) (x1 : Vec F S384x128 .f32) (x2 : Vec F S1x128 .f32) : Vec F S4000x128 .f32 :=
  View.canon [⟨r1_o, k1_pay1 (View.ld x0 r1_x) (View.ld x1 r1_w) (View.ld x2 r1_b)⟩]

/-- The one store covers the buffer. -/
theorem cover1_3 (p0 : Vec F S4000x128 .f32) (y : S4000x128.Idx) :
    ∃ pc ∈ ([⟨r1_o, p0⟩] : List (View.Piece (Elt F) S4000x128 .f32)), y ∈ pc.1.set :=
  View.cover_of_tiled [⟨r1_o, p0⟩] S4000x128.size (by rfl) y

/-! ## The body's triple -/

set_option maxHeartbeats 1000000 in
/-- The body on whole staging buffers, the inputs' at given contents and the output's at anything, runs to the
    continuation with the inputs' as they were and the output's at `out1_3` of the inputs'. -/
theorem sound_kernel1 (c : Dev nD) (E : Set ℕ) (i : grid1.Coords) (arg1 : Memref sig .tc .vmem S4000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The launch's proof data -/

/-- The data of this launch on core `c`: the arrays as the region finds them; after the body at point `t` each input's
    buffer at its block and the output's at `out1_3` of the input blocks; the invariant the untouched rest; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of the program: one launch of the affine layer over its grid.

  At every grid point the body reads three input blocks whole — a block of rows of the data array, the whole weight
  array, the whole bias row — and stores, through the whole output block, one value computed from the three. So after the
  body the output's staging buffer holds that value, whatever it held before, and the input buffers are as they were.
  Stated at arbitrary contents `V` of the buffers when the region is entered: each window's block at a point, what the
  body leaves in the output's buffer, the body's triple, the data the launch theorem asks for, and the body obligation at
  a generic point.
-/
import proofs.«173950_j15281493639484_1_alg».proof.Proof.Gen.KernelIdeal.Launch
import proofs.«173950_j15281493639484_1_alg».proof.Proof.Gen.KernelIdeal.Skeleton
import proofs.«173950_j15281493639484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: where it is not
    fetched its block index has not moved since the last fetch. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one the whole buffer -/

abbrev r2_x : Rect S1000x128 := Rect.unit (s := S1000x128) ![0, 0] S1000x128.size inb_S1000x128_S1000x128_0_0
abbrev r2_w : Rect S128x10 := Rect.unit (s := S128x10) ![0, 0] S128x10.size inb_S128x10_S128x10_0_0
abbrev r2_b : Rect S1x10 := Rect.unit (s := S1x10) ![0, 0] S1x10.size inb_S1x10_S1x10_0_0
abbrev r2_o : Rect S1000x10 := Rect.unit (s := S1000x10) ![0, 0] S1000x10.size inb_S1000x10_S1000x10_0_0

/-! ## What the body leaves in the output window's buffer -/

/-- The output's staging buffer after the body, from the three input blocks: its one store, through the whole block. -/
def out2_3 (x0 : Vec F S1000x128 .f32) (x1 : Vec F S128x10 .f32) (x2 : Vec F S1x10 .f32) : Vec F S1000x10 .f32 :=
  View.canon [⟨r2_o, k2_pay1 (View.ld x0 r2_x) (View.ld x1 r2_w) (View.ld x2 r2_b)⟩]

/-- The one store covers the buffer. -/
theorem cover2_3 (p0 : Vec F S1000x10 .f32) (y : S1000x10.Idx) :
    ∃ pc ∈ ([⟨r2_o, p0⟩] : List (View.Piece (Elt F) S1000x10 .f32)), y ∈ pc.1.set :=
  View.cover_of_tiled [⟨r2_o, p0⟩] S1000x10.size (by rfl) y

/-! ## The body's triple -/

set_option maxHeartbeats 1000000 in
/-- The body on whole staging buffers, the inputs' at given contents and the output's at anything, runs to the
    continuation with the inputs' as they were and the output's at `out2_3` of the inputs'. -/
theorem sound_kernel2 (c : Dev nD) (E : Set ℕ) (i : grid2.Coords) (arg1 : Memref sig .tc .vmem S1000x128 .f32) (harg1 : arg1.IsWhole) (arg2 : Memref sig .tc .vmem S128x10 .f32) (harg2 : arg2.IsWhole)
    (arg3 : Memref sig .tc .vmem S1x10 .f32) (harg3 : arg3.IsWhole) (arg4 : Memref sig .tc .vmem S1000x10 .f32) (harg4 : arg4.IsWhole)
    (x0 : Vec F S1000x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
             ∗ owns (c : Thread nD τ) arg4 fullShare (out2_3 x0 x1 x2)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The launch's proof data -/

/-- The data of this launch on core `c`: the arrays as the region finds them; after the body at point `t` each input's
    buffer at its block and the output's at `out2_3` of the input blocks; the invariant the untouched rest; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: host stretch, region, host stretch, region, host stretch, region.

  The buffers' contents at each boundary between two items are a fold from the launch memory: a host stretch applies its
  operations; a region leaves its output array at what its launch's write-backs produce and every other buffer as it
  found it. Each region is a segment over the thread state "every unscoped buffer at the boundary's contents, the
  generator register at some state, nothing owed", each host stretch a segment over the same state, and the program is
  the run of the six segments. So every weakly fair execution terminates without a fault with every unscoped buffer at
  the last boundary's contents. No item writes an argument array, so each argument ends as launched; the result array
  ends at what the last region's launch leaves in it.
-/
import proofs.«173950_j15281493639484_1_alg».proof.Proof.Gen.KernelIdeal.Launch
import proofs.«173950_j15281493639484_1_alg».proof.Proof.Gen.KernelIdeal.Skeleton
import proofs.«173950_j15281493639484_1_alg».proof.Proof.Gen.KernelIdeal.Points
import proofs.«173950_j15281493639484_1_alg».proof.Proof.Gen.KernelIdeal.Regions
import proofs.«173950_j15281493639484_1_alg».proof.Proof.KI.Body0
import proofs.«173950_j15281493639484_1_alg».proof.Proof.KI.Body1
import proofs.«173950_j15281493639484_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the launch leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: every other buffer leaves as it entered (an input window's array is read,
    never written; a buffer that is no window's array is not touched). -/
theorem W2_keep (c : Dev nD) (b : Ref sig .tc) (hb : b ≠ main_v43) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b fun w e => h ⟨w, e⟩

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the launch leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: every other buffer leaves as it entered (an input window's array is read,
    never written; a buffer that is no window's array is not touched). -/
theorem W4_keep (c : Dev nD) (b : Ref sig .tc) (hb : b ≠ main_v78) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b fun w e => h ⟨w, e⟩

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the launch leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: every other buffer leaves as it entered (an input window's array is read,
    never written; a buffer that is no window's array is not touched). -/
theorem W6_keep (c : Dev nD) (b : Ref sig .tc) (hb : b ≠ main_v92) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl hb
  · exact W6_of_ne m ρ c b fun w e => h ⟨w, e⟩

/-! ## A buffer no item writes ends as launched -/

/-- A buffer that no host stretch writes and that is no region's output holds its launch contents at the end. -/
theorem W6_unwritten (c : Dev nD) (b : Ref sig .tc) (h0 : b ∉ hostOps0_W) (h1 : b ∉ hostOps1_W) (h2 : b ∉ hostOps2_W)
    (e0 : b ≠ main_v43) (e1 : b ≠ main_v78) (e2 : b ≠ main_v92) :
    W6 m ρ c (Proc.devRef .tc b) = m ((c : Thread nD τ).loc b) :=
  calc W6 m ρ c (Proc.devRef .tc b)
    _ = W5 m ρ c (Proc.devRef .tc b) := W6_keep m ρ c b e2
    _ = W4 m ρ c (Proc.devRef .tc b) := StableHlo.after_of_writes_sub hostOps2 _ hostOps2_writes h2
    _ = W3 m ρ c (Proc.devRef .tc b) := W4_keep m ρ c b e1
    _ = W2 m ρ c (Proc.devRef .tc b) := StableHlo.after_of_writes_sub hostOps1 _ hostOps1_writes h1
    _ = W1 m ρ c (Proc.devRef .tc b) := W2_keep m ρ c b e0
    _ = W0 m ρ c (Proc.devRef .tc b) := StableHlo.after_of_writes_sub hostOps0 _ hostOps0_writes h0
    _ = m ((c : Thread nD τ).loc b) := rfl

/-! ## The proof data family and the thread state -/

/-- No launch has a prefetched table. -/
abbrev adm : (p : Fin 3) → (pcfgs (F := F) p).Adm := fun p => (cfgs p).toPCfg_adm
/-- Every launch's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the region's
    arrays at what the launch leaves and every other buffer as entered. Its arrays are split out of the unscoped buffers
    and put back at the exit contents; the generator register goes into the launch's invariant and comes out; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run, the result array and the argument arrays read off: the result at what region 2's launch leaves in
    it, each argument as launched. -/
theorem run_result : θ_run defs (onTc (τ := τ) (main (F := F))) ⟨m, fun _ => 0, ρ⟩ (fun r => ∀ c : Dev nD,
      r.2.mem ((c.tc : Thread nD τ).loc main_v92) = W6 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v92 (by decide)),
      (h c _ (mem_uc main_arg0 (by decide))).trans (W6_unwritten m ρ c main_arg0 (by decide) (by decide) (by decide) (by decide) (by decide) (by decide)),
      (h c _ (mem_uc main_arg1 (by decide))).trans (W6_unwritten m ρ c main_arg1 (by decide) (by decide) (by decide) (by decide) (by decide) (by decide)),
      (h c _ (mem_uc main_arg2 (by decide))).trans (W6_unwritten m ρ c main_arg2 (by decide) (by decide) (by decide) (by decide) (by decide) (by decide)),
      (h c _ (mem_uc main_arg3 (by decide))).trans (W6_unwritten m ρ c main_arg3 (by decide) (by decide) (by decide) (by decide) (by decide) (by decide)),
      (h c _ (mem_uc main_arg4 (by decide))).trans (W6_unwritten m ρ c main_arg4 (by decide) (by decide) (by decide) (by decide) (by decide) (by decide)),
      (h c _ (mem_uc main_arg5 (by decide))).trans (W6_unwritten m ρ c main_arg5 (by decide) (by decide) (by decide) (by decide) (by decide) (by decide)),
      (h c _ (mem_uc main_arg6 (by decide))).trans (W6_unwritten m ρ c main_arg6 (by decide) (by decide) (by decide) (by decide) (by decide) (by decide)),
      (h c _ (mem_uc main_arg7 (by decide))).trans (W6_unwritten m ρ c main_arg7 (by decide) (by decide) (by decide) (by decide) (by decide) (by decide)),
      (h c _ (mem_uc main_arg8 (by decide))).trans (W6_unwritten m ρ c main_arg8 (by decide) (by decide) (by decide) (by decide) (by decide) (by decide)),
      (h c _ (mem_uc main_arg9 (by decide))).trans (W6_unwritten m ρ c main_arg9 (by decide) (by decide) (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Hand

end
-- ==== Proof.KI.Array.lean ====
/-
  From blocks to the array.

  Each region's launch visits the points of its grid; at a point every input window's block is a rectangle of its array,
  and the output window's block, written back, is a rectangle of the output array. Here, for each of the three regions:
  each input window's block at a point read at an index, as the array read at the corresponding index (a block of rows
  starts at block index times the rows per block; a window that is its whole array reads the array itself); and the
  output array after the launch as ONE function `G` of the index, whenever the value computed at each point is `G` on that
  point's block of rows — what a point writes back is then its block of `G`, and the blocks cover the array (row `p` lies
  in the block of point `p / 4000`; the last region has one point and whole blocks).
-/
import proofs.«173950_j15281493639484_1_alg».proof.Proof.KI.Body0
import proofs.«173950_j15281493639484_1_alg».proof.Proof.KI.Body1
import proofs.«173950_j15281493639484_1_alg».proof.Proof.KI.Body2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b))

/-- The whole-buffer rectangles' offsets are zero. -/
theorem off_zero : (![0, 0] : Fin 2 → Nat) = fun _ => 0 := funext fun a => by fin_cases a <;> rfl

/-! ## The first region: twenty-five blocks of 4000 rows -/

/-- The block indices over the grid, decided: the data and output windows' are the point's number along the rows and zero along the columns; the weight and bias windows' are zero. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of a point's block is a row of the array. -/
theorem row_lt0 (t : Fin cfg0.N) (r : Fin 4000) : 4000 * t.val + r.val < 100000 := by
  have h : t.val < 25 := lt_of_lt_of_eq t.isLt (N_0 : cfg0.N = 25)
  have := r.isLt
  omega

/-- The data window's block at a point, read at an index. -/
theorem iblk0_0_apply (c : Dev nD) (t : Fin cfg0.N) (r : Fin 4000) (k : Fin 192) :
    iblk0 V c 0 t (ix2 r k) = V c main_v41 (ix2 (⟨4000 * t.val + r.val, row_lt0 t r⟩ : Fin 100000) k) := by
  obtain ⟨e0, e1, -⟩ := index0 t
  show V c main_v41 (((cfg0.win 0).blk t).view.emb (ix2 r k)) = _
  refine congrArg (V c main_v41) ?_
  funext a; apply Fin.ext
  match a with
  | ⟨0, _⟩ => show win0_0.index t (0 : Fin 2) * 4000 + 1 * r.val = 4000 * t.val + r.val; omega
  | ⟨1, _⟩ => show win0_0.index t (1 : Fin 2) * 192 + 1 * k.val = k.val; omega

/-- The weight window's block is the weight array. -/
theorem iblk0_1_apply (c : Dev nD) (t : Fin cfg0.N) (k : Fin 192) (q : Fin 128) :
    iblk0 V c 1 t (ix2 k q) = V c main_arg4 (ix2 k q) := by
  obtain ⟨-, -, e0, e1, -⟩ := index0 t
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 192 + 1 * k.val = k.val; omega
  | ⟨1, _⟩ => show win0_1.index t (1 : Fin 2) * 128 + 1 * q.val = q.val; omega

/-- The bias window's block is the bias row. -/
theorem iblk0_2_apply (c : Dev nD) (t : Fin cfg0.N) (q : Fin 128) :
    iblk0 V c 2 t (ix2 (0 : Fin 1) q) = V c main_v42 (ix2 (0 : Fin 1) q) := by
  obtain ⟨-, -, -, -, e0, e1, -⟩ := index0 t
  show V c main_v42 (((cfg0.win 2).blk t).view.emb (ix2 (0 : Fin 1) q)) = V c main_v42 (ix2 (0 : Fin 1) q)
  refine congrArg (V c main_v42) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- What a point writes back is its block of `G`, when the value computed there is `G` on the block's rows. -/
theorem flushed0_of (c : Dev nD) (G : S100000x128.Idx → Elt F .f32)
    (hG : ∀ (t : Fin cfg0.N) (r : Fin 4000) (q : Fin 128),
      k0_pay1 (iblk0 V c 0 t) (iblk0 V c 1 t) (iblk0 V c 2 t) (ix2 r q)
        = G (ix2 (⟨4000 * t.val + r.val, row_lt0 t r⟩ : Fin 100000) q)) (t : Fin cfg0.N) :
    (dat0 V c).flushed 3 t = ((cfg0.win 3).blk t).view.read (Elt F) G := by
  show (cfg0.win 3).cut (grid0.coords t) ((dat0 V c).after 3 t) = _
  rw [after0_3]
  unfold out0_3
  rw [View.canon_unit_zero off_zero]
  simp only [View.ld_unit_zero (S := S4000x192) off_zero, View.ld_unit_zero (S := S192x128) off_zero,
    View.ld_unit_zero (S := S1x128) off_zero]
  obtain ⟨-, -, -, -, -, -, e0, e1⟩ := index0 t
  funext j
  obtain ⟨r, q, rfl⟩ : ∃ (r : Fin 4000) (q : Fin 128), j = ix2 r q := ⟨j 0, j 1, eq_ix2 j⟩
  show k0_pay1 (iblk0 V c 0 t) (iblk0 V c 1 t) (iblk0 V c 2 t) (ix2 r q) = G (((cfg0.win 3).blk t).view.emb (ix2 r q))
  refine (hG t r q).trans (congrArg G ?_)
  funext a; apply Fin.ext
  match a with
  | ⟨0, _⟩ => show 4000 * t.val + r.val = win0_3.index t (0 : Fin 2) * 4000 + 1 * r.val; omega
  | ⟨1, _⟩ => show q.val = win0_3.index t (1 : Fin 2) * 128 + 1 * q.val; omega

/-- An index of the output array is in a point's block iff each coordinate is in the block's range on its axis. -/
theorem mem_blk0_3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v43).slice (win0_3.rect t)).set ↔ _
  rw [View.set_slice_whole, Rect.mem_set_unit]
  exact Iff.rfl

/-- Every index of the output array is in some point's block. -/
theorem covered0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 4000 < cfg0.N := by rw [show cfg0.N = 25 from N_0]; omega
  obtain ⟨-, -, -, -, -, -, e0, e1⟩ := index0 ⟨(i 0).val / 4000, ht⟩
  have e0' : win0_3.index ⟨(i 0).val / 4000, ht⟩ (0 : Fin 2) = (i 0).val / 4000 := e0
  refine ⟨⟨(i 0).val / 4000, ht⟩, flush0_3 _, ?_⟩
  rw [mem_blk0_3]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 128 ≤ (i 1).val ∧ (i 1).val < win0_3.index ⟨(i 0).val / 4000, ht⟩ (1 : Fin 2) * 128 + 128; omega

/-- The output array after the launch is `G`. -/
theorem final0_of (c : Dev nD) (G : S100000x128.Idx → Elt F .f32)
    (hG : ∀ (t : Fin cfg0.N) (r : Fin 4000) (q : Fin 128),
      k0_pay1 (iblk0 V c 0 t) (iblk0 V c 1 t) (iblk0 V c 2 t) (ix2 r q)
        = G (ix2 (⟨4000 * t.val + r.val, row_lt0 t r⟩ : Fin 100000) q)) :
    (dat0 V c).arrAt 3 cfg0.N = G :=
  (dat0 V c).arrAt_eq_of_cover 3 G (fun t _ => flushed0_of V c G hG t) covered0_3

/-! ## The second region: the same, over the wider data array -/

/-- The block indices over the grid, decided: the data and output windows' are the point's number along the rows and zero along the columns; the weight and bias windows' are zero. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row of a point's block is a row of the array. -/
theorem row_lt1 (t : Fin cfg1.N) (r : Fin 4000) : 4000 * t.val + r.val < 100000 := by
  have h : t.val < 25 := lt_of_lt_of_eq t.isLt (N_1 : cfg1.N = 25)
  have := r.isLt
  omega

/-- The data window's block at a point, read at an index. -/
theorem iblk1_0_apply (c : Dev nD) (t : Fin cfg1.N) (r : Fin 4000) (k : Fin 384) :
    iblk1 V c 0 t (ix2 r k) = V c main_v76 (ix2 (⟨4000 * t.val + r.val, row_lt1 t r⟩ : Fin 100000) k) := by
  obtain ⟨e0, e1, -⟩ := index1 t
  show V c main_v76 (((cfg1.win 0).blk t).view.emb (ix2 r k)) = _
  refine congrArg (V c main_v76) ?_
  funext a; apply Fin.ext
  match a with
  | ⟨0, _⟩ => show win1_0.index t (0 : Fin 2) * 4000 + 1 * r.val = 4000 * t.val + r.val; omega
  | ⟨1, _⟩ => show win1_0.index t (1 : Fin 2) * 384 + 1 * k.val = k.val; omega

/-- The weight window's block is the weight array. -/
theorem iblk1_1_apply (c : Dev nD) (t : Fin cfg1.N) (k : Fin 384) (q : Fin 128) :
    iblk1 V c 1 t (ix2 k q) = V c main_arg6 (ix2 k q) := by
  obtain ⟨-, -, e0, e1, -⟩ := index1 t
  show V c main_arg6 (((cfg1.win 1).blk t).view.emb (ix2 k q)) = V c main_arg6 (ix2 k q)
  refine congrArg (V c main_arg6) ?_
  funext a; apply Fin.ext
  match a with
  | ⟨0, _⟩ => show win1_1.index t (0 : Fin 2) * 384 + 1 * k.val = k.val; omega
  | ⟨1, _⟩ => show win1_1.index t (1 : Fin 2) * 128 + 1 * q.val = q.val; omega

/-- The bias window's block is the bias row. -/
theorem iblk1_2_apply (c : Dev nD) (t : Fin cfg1.N) (q : Fin 128) :
    iblk1 V c 2 t (ix2 (0 : Fin 1) q) = V c main_v77 (ix2 (0 : Fin 1) q) := by
  obtain ⟨-, -, -, -, e0, e1, -⟩ := index1 t
  show V c main_v77 (((cfg1.win 2).blk t).view.emb (ix2 (0 : Fin 1) q)) = V c main_v77 (ix2 (0 : Fin 1) q)
  refine congrArg (V c main_v77) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- What a point writes back is its block of `G`, when the value computed there is `G` on the block's rows. -/
theorem flushed1_of (c : Dev nD) (G : S100000x128.Idx → Elt F .f32)
    (hG : ∀ (t : Fin cfg1.N) (r : Fin 4000) (q : Fin 128),
      k1_pay1 (iblk1 V c 0 t) (iblk1 V c 1 t) (iblk1 V c 2 t) (ix2 r q)
        = G (ix2 (⟨4000 * t.val + r.val, row_lt1 t r⟩ : Fin 100000) q)) (t : Fin cfg1.N) :
    (dat1 V c).flushed 3 t = ((cfg1.win 3).blk t).view.read (Elt F) G := by
  show (cfg1.win 3).cut (grid1.coords t) ((dat1 V c).after 3 t) = _
  rw [after1_3]
  unfold out1_3
  rw [View.canon_unit_zero off_zero]
  simp only [View.ld_unit_zero (S := S4000x384) off_zero, View.ld_unit_zero (S := S384x128) off_zero,
    View.ld_unit_zero (S := S1x128) off_zero]
  obtain ⟨-, -, -, -, -, -, e0, e1⟩ := index1 t
  funext j
  obtain ⟨r, q, rfl⟩ : ∃ (r : Fin 4000) (q : Fin 128), j = ix2 r q := ⟨j 0, j 1, eq_ix2 j⟩
  show k1_pay1 (iblk1 V c 0 t) (iblk1 V c 1 t) (iblk1 V c 2 t) (ix2 r q) = G (((cfg1.win 3).blk t).view.emb (ix2 r q))
  refine (hG t r q).trans (congrArg G ?_)
  funext a; apply Fin.ext
  match a with
  | ⟨0, _⟩ => show 4000 * t.val + r.val = win1_3.index t (0 : Fin 2) * 4000 + 1 * r.val; omega
  | ⟨1, _⟩ => show q.val = win1_3.index t (1 : Fin 2) * 128 + 1 * q.val; omega

/-- An index of the output array is in a point's block iff each coordinate is in the block's range on its axis. -/
theorem mem_blk1_3 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v78).slice (win1_3.rect t)).set ↔ _
  rw [View.set_slice_whole, Rect.mem_set_unit]
  exact Iff.rfl

/-- Every index of the output array is in some point's block. -/
theorem covered1_3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 4000 < cfg1.N := by rw [show cfg1.N = 25 from N_1]; omega
  obtain ⟨-, -, -, -, -, -, e0, e1⟩ := index1 ⟨(i 0).val / 4000, ht⟩
  have e0' : win1_3.index ⟨(i 0).val / 4000, ht⟩ (0 : Fin 2) = (i 0).val / 4000 := e0
  refine ⟨⟨(i 0).val / 4000, ht⟩, flush1_3 _, ?_⟩
  rw [mem_blk1_3]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; omega
  | ⟨1, _⟩ => show win1_3.index ⟨(i 0).val / 4000, ht⟩ (1 : Fin 2) * 128 ≤ (i 1).val ∧ (i 1).val < win1_3.index ⟨(i 0).val / 4000, ht⟩ (1 : Fin 2) * 128 + 128; omega

/-- The output array after the launch is `G`. -/
theorem final1_of (c : Dev nD) (G : S100000x128.Idx → Elt F .f32)
    (hG : ∀ (t : Fin cfg1.N) (r : Fin 4000) (q : Fin 128),
      k1_pay1 (iblk1 V c 0 t) (iblk1 V c 1 t) (iblk1 V c 2 t) (ix2 r q)
        = G (ix2 (⟨4000 * t.val + r.val, row_lt1 t r⟩ : Fin 100000) q)) :
    (dat1 V c).arrAt 3 cfg1.N = G :=
  (dat1 V c).arrAt_eq_of_cover 3 G (fun t _ => flushed1_of V c G hG t) covered1_3

/-! ## The last region: one point, every window its whole array -/

/-- The block indices over the grid, decided: every window's is zero on both axes. -/
theorem index2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The data window's block is the data array. -/
theorem iblk2_0_apply (c : Dev nD) (t : Fin cfg2.N) (r : Fin 1000) (k : Fin 128) :
    iblk2 V c 0 t (ix2 r k) = V c main_v90 (ix2 r k) := by
  obtain ⟨e0, e1, -⟩ := index2 t
  show V c main_v90 (((cfg2.win 0).blk t).view.emb (ix2 r k)) = V c main_v90 (ix2 r k)
  refine congrArg (V c main_v90) ?_
  funext a; apply Fin.ext
  match a with
  | ⟨0, _⟩ => show win2_0.index t (0 : Fin 2) * 1000 + 1 * r.val = r.val; omega
  | ⟨1, _⟩ => show win2_0.index t (1 : Fin 2) * 128 + 1 * k.val = k.val; omega

/-- The weight window's block is the weight array. -/
theorem iblk2_1_apply (c : Dev nD) (t : Fin cfg2.N) (k : Fin 128) (q : Fin 10) :
    iblk2 V c 1 t (ix2 k q) = V c main_arg8 (ix2 k q) := by
  obtain ⟨-, -, e0, e1, -⟩ := index2 t
  show V c main_arg8 (((cfg2.win 1).blk t).view.emb (ix2 k q)) = V c main_arg8 (ix2 k q)
  refine congrArg (V c main_arg8) ?_
  funext a; apply Fin.ext
  match a with
  | ⟨0, _⟩ => show win2_1.index t (0 : Fin 2) * 128 + 1 * k.val = k.val; omega
  | ⟨1, _⟩ => show win2_1.index t (1 : Fin 2) * 10 + 1 * q.val = q.val; omega

/-- The bias window's block is the bias row. -/
theorem iblk2_2_apply (c : Dev nD) (t : Fin cfg2.N) (q : Fin 10) :
    iblk2 V c 2 t (ix2 (0 : Fin 1) q) = V c main_v91 (ix2 (0 : Fin 1) q) := by
  obtain ⟨-, -, -, -, e0, e1, -⟩ := index2 t
  show V c main_v91 (((cfg2.win 2).blk t).view.emb (ix2 (0 : Fin 1) q)) = V c main_v91 (ix2 (0 : Fin 1) q)
  refine congrArg (V c main_v91) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 10 + 1 * q.val = q.val; omega

/-- What a point writes back is its block of `G`, when the value computed there is `G` on the block's rows. -/
theorem flushed2_of (c : Dev nD) (G : S1000x10.Idx → Elt F .f32)
    (hG : ∀ (t : Fin cfg2.N) (r : Fin 1000) (q : Fin 10),
      k2_pay1 (iblk2 V c 0 t) (iblk2 V c 1 t) (iblk2 V c 2 t) (ix2 r q) = G (ix2 r q)) (t : Fin cfg2.N) :
    (dat2 V c).flushed 3 t = ((cfg2.win 3).blk t).view.read (Elt F) G := by
  show (cfg2.win 3).cut (grid2.coords t) ((dat2 V c).after 3 t) = _
  rw [after2_3]
  unfold out2_3
  rw [View.canon_unit_zero off_zero]
  simp only [View.ld_unit_zero (S := S1000x128) off_zero, View.ld_unit_zero (S := S128x10) off_zero,
    View.ld_unit_zero (S := S1x10) off_zero]
  obtain ⟨-, -, -, -, -, -, e0, e1⟩ := index2 t
  funext j
  obtain ⟨r, q, rfl⟩ : ∃ (r : Fin 1000) (q : Fin 10), j = ix2 r q := ⟨j 0, j 1, eq_ix2 j⟩
  show k2_pay1 (iblk2 V c 0 t) (iblk2 V c 1 t) (iblk2 V c 2 t) (ix2 r q) = G (((cfg2.win 3).blk t).view.emb (ix2 r q))
  refine (hG t r q).trans (congrArg G ?_)
  funext a; apply Fin.ext
  match a with
  | ⟨0, _⟩ => show r.val = win2_3.index t (0 : Fin 2) * 1000 + 1 * r.val; omega
  | ⟨1, _⟩ => show q.val = win2_3.index t (1 : Fin 2) * 10 + 1 * q.val; omega

/-- An index of the output array is in a point's block iff each coordinate is in the block's range on its axis. -/
theorem mem_blk2_3 (t : Fin cfg2.N) (i : S1000x10.Idx) :
    i ∈ ((cfg2.win 3).blk t).view.set ↔ ∀ a : Fin 2, win2_3.index t a * S1000x10.size a ≤ (i a).val ∧ (i a).val < win2_3.index t a * S1000x10.size a + S1000x10.size a := by
  show i ∈ ((View.whole main_v92).slice (win2_3.rect t)).set ↔ _
  rw [View.set_slice_whole, Rect.mem_set_unit]
  exact Iff.rfl

/-- Every index of the output array is in some point's block. -/
theorem covered2_3 (i : S1000x10.Idx) : ∃ t : Fin cfg2.N, (cfg2.win 3).flush t = true ∧ i ∈ ((cfg2.win 3).blk t).view.set := by
  obtain ⟨-, -, -, -, -, -, e0, e1⟩ := index2 t2_0
  have hi0 : (i 0).val < 1000 := (i 0).isLt
  have hi1 : (i 1).val < 10 := (i 1).isLt
  refine ⟨t2_0, flush2_3 t2_0, ?_⟩
  rw [mem_blk2_3]
  intro a
  match a with
  | ⟨0, _⟩ => show win2_3.index t2_0 (0 : Fin 2) * 1000 ≤ (i 0).val ∧ (i 0).val < win2_3.index t2_0 (0 : Fin 2) * 1000 + 1000; omega
  | ⟨1, _⟩ => show win2_3.index t2_0 (1 : Fin 2) * 10 ≤ (i 1).val ∧ (i 1).val < win2_3.index t2_0 (1 : Fin 2) * 10 + 10; omega

/-- The output array after the launch is `G`. -/
theorem final2_of (c : Dev nD) (G : S1000x10.Idx → Elt F .f32)
    (hG : ∀ (t : Fin cfg2.N) (r : Fin 1000) (q : Fin 10),
      k2_pay1 (iblk2 V c 0 t) (iblk2 V c 1 t) (iblk2 V c 2 t) (ix2 r q) = G (ix2 r q)) :
    (dat2 V c).arrAt 3 cfg2.N = G :=
  (dat2 V c).arrAt_eq_of_cover 3 G (fun t _ => flushed2_of V c G hG t) covered2_3

end Cert.KernelIdeal.Hand

end
-- ==== Proof.Spec.lean ====
/-
  One entry of an affine layer, over the extended reals.

  For a data array X of n rows and c columns, a weight array W of c rows and h columns and a bias row b of h entries,
  the entry in row p and column q of X·W + b is the sum over k of X(p,k)·W(k,q), plus b(q). The rectified layer takes
  the larger of that number and the value of the all-zero float word. Both programs of this certificate compute exactly
  these entries, the kernel block of rows by block of rows, the reference on whole arrays; stating the entry once lets
  the two meet at one term.
-/
import Idealize.ShloMosaic.Lib.ValueIdx
import Idealize.ShloMosaic.PureOps.Ideal

noncomputable section

namespace Cert.Hand.Spec

open Idealize.ShloMosaic Idealize.ShloMosaic.ValueIdx
open scoped BigOperators

/-- Entry (p, q) of X·W + b. -/
def linAt {n c h : Nat} (X : (⟨2, ![n, c]⟩ : Shape).Idx → EReal) (W : (⟨2, ![c, h]⟩ : Shape).Idx → EReal)
    (b : Fin h → EReal) (p : Fin n) (q : Fin h) : EReal :=
  (∑ k : Fin c, X (ix2 p k) * W (ix2 k q)) + b q

/-- Entry (p, q) of max(X·W + b, 0), the zero being the value of the all-zero float word. -/
def linReluAt {n c h : Nat} (X : (⟨2, ![n, c]⟩ : Shape).Idx → EReal) (W : (⟨2, ![c, h]⟩ : Shape).Idx → EReal)
    (b : Fin h → EReal) (p : Fin n) (q : Fin h) : EReal :=
  max (linAt X W b p q) (Ideal.ofBits .f32 0x00000000#32)

end Cert.Hand.Spec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.ValueIdeal.lean ====
/-
  Each program's affine layer read at an index, over the extended reals.

  A kernel body computes, from a block X of data rows, a weight array W and a one-row bias B, the array
  X·W + B (the first two bodies followed by the entrywise maximum with the value of the all-zero float word). Over the
  extended reals a change of float format is the identity, a reshape to the same shape is the identity, the product
  into a zero accumulator at (r, q) is the sum over k of X(r,k)·W(k,q), and the one bias row broadcast over the rows
  reads B(0,q) at (r, q). So the body's entry at (r, q) is the affine layer's entry (rectified for the first two).

  The reference computes the same layer on whole arrays: a product whose entry at (p, q) is the sum over k of the left
  operand at (p, k) times the right at (k, q), plus the bias vector b broadcast first to one row and then over all
  rows, which reads b(q) at (p, q), and for the first two layers the entrywise maximum with the splat of the value of
  the all-zero float word. So each stage's entry at (p, q) is the same affine-layer entry, of the stage's own input.
-/
import proofs.«173950_j15281493639484_1_alg».proof.Proof.Spec
import proofs.«173950_j15281493639484_1_alg».proof.Proof.LibPlainDot
import proofs.«173950_j15281493639484_1_alg».proof.Proof.Gen.KernelIdeal.Skeleton
import proofs.«173950_j15281493639484_1_alg».proof.Proof.Gen.ReferenceIdeal.Read
import Idealize.ShloMosaic.Lib.ValueLayout
import Idealize.ShloMosaic.Lib.Pipeline.Value

noncomputable section

namespace Cert.Hand.Value

open Idealize.ShloMosaic Idealize.ShloMosaic.ValueIdx Cert.Hand.Spec
open scoped BigOperators

/-! ## The kernel bodies -/

/-- The first body's entry (r, q): the rectified affine layer of a 4000-row block with 192 columns. -/
theorem pay0_apply (x0 : Vec Ideal Cert.KernelIdeal.S4000x192 .f32) (x3 : Vec Ideal Cert.KernelIdeal.S192x128 .f32)
    (x6 : Vec Ideal Cert.KernelIdeal.S1x128 .f32) (r : Fin 4000) (q : Fin 128) :
    Cert.KernelIdeal.Gen.k0_pay1 (F := Ideal) x0 x3 x6 (ix2 r q) = linReluAt x0 x3 (fun q => x6 (ix2 0 q)) r q := by
  unfold Cert.KernelIdeal.Gen.k0_pay1 linReluAt linAt
  refine (maximumf_apply _ _ _).trans ?_
  refine congrArg₂ max ?_ rfl
  refine (addf_apply _ _ _).trans ?_
  refine congrArg₂ (· + ·) ?_ ?_
  · refine (Cert.Lib.PlainDot.matmul_zero_apply _ none _ _ r q).trans ?_
    refine Finset.sum_congr rfl fun k _ => ?_
    rw [truncf_apply, truncf_apply, shapeCast_self]
  · refine (broadcastTo_1b_ab_apply _ _ r q).trans ?_
    rw [shapeCast_self]

/-- The second body's entry (r, q): the rectified affine layer of a 4000-row block with 384 columns. -/
theorem pay1_apply (x0 : Vec Ideal Cert.KernelIdeal.S4000x384 .f32) (x3 : Vec Ideal Cert.KernelIdeal.S384x128 .f32)
    (x6 : Vec Ideal Cert.KernelIdeal.S1x128 .f32) (r : Fin 4000) (q : Fin 128) :
    Cert.KernelIdeal.Gen.k1_pay1 (F := Ideal) x0 x3 x6 (ix2 r q) = linReluAt x0 x3 (fun q => x6 (ix2 0 q)) r q := by
  unfold Cert.KernelIdeal.Gen.k1_pay1 linReluAt linAt
  refine (maximumf_apply _ _ _).trans ?_
  refine congrArg₂ max ?_ rfl
  refine (addf_apply _ _ _).trans ?_
  refine congrArg₂ (· + ·) ?_ ?_
  · refine (Cert.Lib.PlainDot.matmul_zero_apply _ none _ _ r q).trans ?_
    refine Finset.sum_congr rfl fun k _ => ?_
    rw [truncf_apply, truncf_apply, shapeCast_self]
  · refine (broadcastTo_1b_ab_apply _ _ r q).trans ?_
    rw [shapeCast_self]

/-- The third body's entry (r, q): the affine layer of the 1000 rows with 128 columns, not rectified. -/
theorem pay2_apply (x0 : Vec Ideal Cert.KernelIdeal.S1000x128 .f32) (x3 : Vec Ideal Cert.KernelIdeal.S128x10 .f32)
    (x6 : Vec Ideal Cert.KernelIdeal.S1x10 .f32) (r : Fin 1000) (q : Fin 10) :
    Cert.KernelIdeal.Gen.k2_pay1 (F := Ideal) x0 x3 x6 (ix2 r q) = linAt x0 x3 (fun q => x6 (ix2 0 q)) r q := by
  unfold Cert.KernelIdeal.Gen.k2_pay1 linAt
  refine (addf_apply _ _ _).trans ?_
  refine congrArg₂ (· + ·) ?_ ?_
  · refine (Cert.Lib.PlainDot.matmul_zero_apply _ none _ _ r q).trans ?_
    refine Finset.sum_congr rfl fun k _ => ?_
    rw [truncf_apply, truncf_apply, shapeCast_self]
  · refine (broadcastTo_1b_ab_apply _ _ r q).trans ?_
    rw [shapeCast_self]

/-! ## The reference's stages -/

/-- The first layer's entry (p, q): the rectified affine layer of the first concatenated features. -/
theorem ref0_apply (a0 : (⟨Cert.ReferenceIdeal.S100000x64, .f32⟩ : BufTy).Contents (Elt Ideal))
    (a1 a2 : (⟨Cert.ReferenceIdeal.S1600000, .i32⟩ : BufTy).Contents (Elt Ideal))
    (a4 : (⟨Cert.ReferenceIdeal.S192x128, .f32⟩ : BufTy).Contents (Elt Ideal))
    (a5 : (⟨Cert.ReferenceIdeal.S128, .f32⟩ : BufTy).Contents (Elt Ideal)) (p : Fin 100000) (q : Fin 128) :
    Cert.ReferenceIdeal.Read.val_main_v46 (F := Ideal) a0 a1 a2 a4 a5 (ix2 p q)
      = linReluAt (Cert.ReferenceIdeal.Read.val_main_v41 (F := Ideal) a0 a1 a2) a4 (fun q => a5 (ix1 q)) p q := by
  unfold linReluAt linAt
  rw [Cert.ReferenceIdeal.Read.val_main_v46_apply, Cert.ReferenceIdeal.Read.val_main_v45_apply, Cert.ReferenceIdeal.Read.val_main_v42_apply,
    Cert.ReferenceIdeal.Read.val_main_v44_apply, Cert.ReferenceIdeal.Read.val_main_v43_apply, Cert.ReferenceIdeal.Read.val_main_call0_v0_apply,
    Cert.ReferenceIdeal.Read.val_main_call0_cst_apply]
  refine congrArg₂ max (congrArg₂ (· + ·) ?_ ?_) rfl
  · refine Finset.sum_congr rfl fun k _ => ?_
    have el : Cert.ReferenceIdeal.Read.lidx_main_v42 (ix2 p q) k = ix2 p k :=
      funext fun a => Fin.ext (by match a with | ⟨0, _⟩ => rfl | ⟨1, _⟩ => rfl)
    have er : Cert.ReferenceIdeal.Read.ridx_main_v42 (ix2 p q) k = ix2 k q :=
      funext fun a => Fin.ext (by match a with | ⟨0, _⟩ => rfl | ⟨1, _⟩ => rfl)
    rw [el, er]
  · have eb : Cert.ReferenceIdeal.Read.idx_main_v43 (Cert.ReferenceIdeal.Read.idx_main_v44 (ix2 p q)) = ix1 q :=
      funext fun a => Fin.ext (by match a with | ⟨0, _⟩ => rfl)
    rw [eb]

/-- The second layer's entry (p, q): the rectified affine layer of the second concatenated features. -/
theorem ref1_apply (a0 : (⟨Cert.ReferenceIdeal.S100000x64, .f32⟩ : BufTy).Contents (Elt Ideal))
    (a1 a2 : (⟨Cert.ReferenceIdeal.S1600000, .i32⟩ : BufTy).Contents (Elt Ideal))
    (a4 : (⟨Cert.ReferenceIdeal.S192x128, .f32⟩ : BufTy).Contents (Elt Ideal))
    (a5 : (⟨Cert.ReferenceIdeal.S128, .f32⟩ : BufTy).Contents (Elt Ideal))
    (a6 : (⟨Cert.ReferenceIdeal.S384x128, .f32⟩ : BufTy).Contents (Elt Ideal))
    (a7 : (⟨Cert.ReferenceIdeal.S128, .f32⟩ : BufTy).Contents (Elt Ideal)) (p : Fin 100000) (q : Fin 128) :
    Cert.ReferenceIdeal.Read.val_main_v84 (F := Ideal) a0 a1 a2 a4 a5 a6 a7 (ix2 p q)
      = linReluAt (Cert.ReferenceIdeal.Read.val_main_v79 (F := Ideal) a0 a1 a2 a4 a5) a6 (fun q => a7 (ix1 q)) p q := by
  unfold linReluAt linAt
  rw [Cert.ReferenceIdeal.Read.val_main_v84_apply, Cert.ReferenceIdeal.Read.val_main_v83_apply, Cert.ReferenceIdeal.Read.val_main_v80_apply,
    Cert.ReferenceIdeal.Read.val_main_v82_apply, Cert.ReferenceIdeal.Read.val_main_v81_apply, Cert.ReferenceIdeal.Read.val_main_call1_v0_apply,
    Cert.ReferenceIdeal.Read.val_main_call1_cst_apply]
  refine congrArg₂ max (congrArg₂ (· + ·) ?_ ?_) rfl
  · refine Finset.sum_congr rfl fun k _ => ?_
    have el : Cert.ReferenceIdeal.Read.lidx_main_v80 (ix2 p q) k = ix2 p k :=
      funext fun a => Fin.ext (by match a with | ⟨0, _⟩ => rfl | ⟨1, _⟩ => rfl)
    have er : Cert.ReferenceIdeal.Read.ridx_main_v80 (ix2 p q) k = ix2 k q :=
      funext fun a => Fin.ext (by match a with | ⟨0, _⟩ => rfl | ⟨1, _⟩ => rfl)
    rw [el, er]
  · have eb : Cert.ReferenceIdeal.Read.idx_main_v81 (Cert.ReferenceIdeal.Read.idx_main_v82 (ix2 p q)) = ix1 q :=
      funext fun a => Fin.ext (by match a with | ⟨0, _⟩ => rfl)
    rw [eb]

/-- The last layer's entry (p, q): the affine layer of the pooled features, not rectified. -/
theorem ref2_apply (a0 : (⟨Cert.ReferenceIdeal.S100000x64, .f32⟩ : BufTy).Contents (Elt Ideal))
    (a1 a2 : (⟨Cert.ReferenceIdeal.S1600000, .i32⟩ : BufTy).Contents (Elt Ideal))
    (a3 : (⟨Cert.ReferenceIdeal.S100000, .i32⟩ : BufTy).Contents (Elt Ideal))
    (a4 : (⟨Cert.ReferenceIdeal.S192x128, .f32⟩ : BufTy).Contents (Elt Ideal))
    (a5 : (⟨Cert.ReferenceIdeal.S128, .f32⟩ : BufTy).Contents (Elt Ideal))
    (a6 : (⟨Cert.ReferenceIdeal.S384x128, .f32⟩ : BufTy).Contents (Elt Ideal))
    (a7 : (⟨Cert.ReferenceIdeal.S128, .f32⟩ : BufTy).Contents (Elt Ideal))
    (a8 : (⟨Cert.ReferenceIdeal.S128x10, .f32⟩ : BufTy).Contents (Elt Ideal))
    (a9 : (⟨Cert.ReferenceIdeal.S10, .f32⟩ : BufTy).Contents (Elt Ideal)) (p : Fin 1000) (q : Fin 10) :
    Cert.ReferenceIdeal.Read.val_main_v100 (F := Ideal) a0 a1 a2 a3 a4 a5 a6 a7 a8 a9 (ix2 p q)
      = linAt (Cert.ReferenceIdeal.Read.val_main_v96 (F := Ideal) a0 a1 a2 a3 a4 a5 a6 a7) a8 (fun q => a9 (ix1 q)) p q := by
  unfold linAt
  rw [Cert.ReferenceIdeal.Read.val_main_v100_apply, Cert.ReferenceIdeal.Read.val_main_v97_apply,
    Cert.ReferenceIdeal.Read.val_main_v99_apply, Cert.ReferenceIdeal.Read.val_main_v98_apply]
  refine congrArg₂ (· + ·) ?_ ?_
  · refine Finset.sum_congr rfl fun k _ => ?_
    have el : Cert.ReferenceIdeal.Read.lidx_main_v97 (ix2 p q) k = ix2 p k :=
      funext fun a => Fin.ext (by match a with | ⟨0, _⟩ => rfl | ⟨1, _⟩ => rfl)
    have er : Cert.ReferenceIdeal.Read.ridx_main_v97 (ix2 p q) k = ix2 k q :=
      funext fun a => Fin.ext (by match a with | ⟨0, _⟩ => rfl | ⟨1, _⟩ => rfl)
    rw [el, er]
  · have eb : Cert.ReferenceIdeal.Read.idx_main_v98 (Cert.ReferenceIdeal.Read.idx_main_v99 (ix2 p q)) = ix1 q :=
      funext fun a => Fin.ext (by match a with | ⟨0, _⟩ => rfl)
    rw [eb]

end Cert.Hand.Value

end
-- ==== Proof.LibNaryLiteral.lean ====
/-
  The result of a host operation with a literal family of 3, or of 16, operand references.

  An operation that reads a family of operands `xs : Fin n → reference` leaves its result buffer at its function of the
  family of the operands' contents, `fun k => (contents of xs k)`. When the family is a literal, `![x0, …]`, that
  family of contents is, entry by entry, the literal family of the contents at `x0`, …: written that way, each operand's
  contents stands at its own reference, outside any binder, where it can be rewritten in turn. The library has this for a
  family of four; here it is for three and for sixteen (a join of 16 pieces). This holds over any signature and any
  value type.
-/
import Idealize.ShloMosaic.Lib.StableHlo.Run

noncomputable section

namespace Cert.Lib.NaryLiteral

open Idealize.ShloMosaic Idealize.ShloMosaic.StableHlo

variable {τ : Topo} {sig : RefSig} {Val : EltTy → Type}

/-- `nary` over a literal family of 3 references: the result with each operand's contents at its own reference. -/
theorem nary3_result {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same with the result reference un-indexed, for `simp`. -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F

/-- `nary` over a literal family of 16 references: the result with each operand's contents at its own reference. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

/-- The same with the result reference un-indexed, for `simp`. -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

end Cert.Lib.NaryLiteral

end
-- ==== Proof.HostBridge.lean ====
import proofs.«173950_j15281493639484_1_alg».proof.Proof.Gen.KernelIdeal.Launch
import proofs.«173950_j15281493639484_1_alg».proof.Proof.Gen.ReferenceIdeal.Read
import proofs.«173950_j15281493639484_1_alg».proof.Proof.LibNaryLiteral
import Idealize.ShloMosaic.Lib.StableHlo.Run
import Idealize.ShloMosaic.Lib.ValueIdx
import Idealize.ShloMosaic.Lib.ValueLayout

/-! # The kernel program's host stretches compute the reference's stages

The kernel program's `@main` runs three stretches of host operations around its three regions. Each stretch is
the same sequence of operations the reference program performs (degree normalisation, gather, scatter-add,
concatenation, segment mean), under its own numbering of the intermediate values. For an arbitrary valuation of the
buffers when a stretch starts, the contents a stretch leaves at the buffers the next region reads are the reference's
stage values, as functions of the arguments and of the previous region's output. A reference `b` of the TensorCore is
read as the device reference `d b = Proc.devRef .tc b`. -/

noncomputable section

namespace Cert.Hand.Bridge

open Idealize.ShloMosaic Idealize.SL.Sem Idealize.ShloMosaic.StableHlo Idealize.ShloMosaic.ValueIdx

/-- A TensorCore reference as a device reference. -/
abbrev d (b : Ref Cert.KernelIdeal.sig .tc) : DevRef Cert.KernelIdeal.τ Cert.KernelIdeal.sig := Proc.devRef .tc b

/-- Three arrays joined along one axis. -/
def cat3 {α : Type} (t : Shape) (a : Fin t.rank) (s0 s1 s2 : Shape) (h : Shape.Concatenates [s0, s1, s2] t a)
    (x : s0.Idx → α) (y : s1.Idx → α) (z : s2.Idx → α) : t.Idx → α :=
  concatenate t a [⟨s0, x⟩, ⟨s1, y⟩, ⟨s2, z⟩] h

open Cert.KernelIdeal Cert.KernelIdeal.Gen in
/-- The first concatenation reads its three operands' contents, each at its own buffer. -/
theorem cat41_result (hxs hy) (W : Valuation Cert.KernelIdeal.τ Cert.KernelIdeal.sig (Elt Ideal)) :
    (StableHlo.nary (τ := Cert.KernelIdeal.τ) (Val := Elt Ideal) ![main_arg0, main_v23, main_v40] main_v41
        (fun u => concatenate S100000x192 1 [⟨S100000x64, u 0⟩, ⟨S100000x64, u 1⟩, ⟨S100000x64, u 2⟩] concatenates_S100000x64_S100000x64_S100000x64_S100000x192_d1) hxs hy).result W
          (no_index (Proc.devRef .tc main_v41))
      = cat3 S100000x192 1 S100000x64 S100000x64 S100000x64 concatenates_S100000x64_S100000x64_S100000x64_S100000x192_d1
          (W (Proc.devRef .tc main_arg0)) (W (Proc.devRef .tc main_v23)) (W (Proc.devRef .tc main_v40)) := by
  rw [Cert.Lib.NaryLiteral.nary3_result]; rfl

open Cert.KernelIdeal Cert.KernelIdeal.Gen in
/-- The second concatenation reads its three operands' contents, each at its own buffer. -/
theorem cat76_result (hxs hy) (W : Valuation Cert.KernelIdeal.τ Cert.KernelIdeal.sig (Elt Ideal)) :
    (StableHlo.nary (τ := Cert.KernelIdeal.τ) (Val := Elt Ideal) ![main_v43, main_v58, main_v75] main_v76
        (fun u => concatenate S100000x384 1 [⟨S100000x128, u 0⟩, ⟨S100000x128, u 1⟩, ⟨S100000x128, u 2⟩] concatenates_S100000x128_S100000x128_S100000x128_S100000x384_d1) hxs hy).result W
          (no_index (Proc.devRef .tc main_v76))
      = cat3 S100000x384 1 S100000x128 S100000x128 S100000x128 concatenates_S100000x128_S100000x128_S100000x128_S100000x384_d1
          (W (Proc.devRef .tc main_v43)) (W (Proc.devRef .tc main_v58)) (W (Proc.devRef .tc main_v75)) := by
  rw [Cert.Lib.NaryLiteral.nary3_result]; rfl

set_option maxRecDepth 8192 in
set_option maxHeartbeats 1000000 in
/-- Before region 0: the concatenation of the features with their two propagated copies is the reference's. -/
theorem stretch0_v41 (V : Valuation Cert.KernelIdeal.τ Cert.KernelIdeal.sig (Elt Ideal)) :
    StableHlo.after (Cert.KernelIdeal.Gen.hostOps0 (F := Ideal)) V (d Cert.KernelIdeal.main_v41)
      = Cert.ReferenceIdeal.Read.val_main_v41 (F := Ideal) (V (d Cert.KernelIdeal.main_arg0)) (V (d Cert.KernelIdeal.main_arg1)) (V (d Cert.KernelIdeal.main_arg2)) := by
  simp (disch := decide) only [after_cons, after_nil, nullary_result', unary_result', binary_result', ternary_result',
    reshape_result', cat41_result, cat76_result, nullary_result_ne', unary_result_ne', binary_result_ne', ternary_result_ne',
    reshape_result_ne', nary_result_ne']
  unfold Cert.ReferenceIdeal.Read.val_main_v41 Cert.ReferenceIdeal.Read.val_main_v40 Cert.ReferenceIdeal.Read.val_main_v39 Cert.ReferenceIdeal.Read.val_main_v38 Cert.ReferenceIdeal.Read.val_main_cst_8 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_cst_7 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_6 Cert.ReferenceIdeal.Read.val_main_v27 Cert.ReferenceIdeal.Read.val_main_v26 Cert.ReferenceIdeal.Read.val_main_c_5 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_cst_4 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_c_3 Cert.ReferenceIdeal.Read.val_main_v12 Cert.ReferenceIdeal.Read.val_main_v11 Cert.ReferenceIdeal.Read.val_main_c Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_cst_2 Cert.ReferenceIdeal.Read.val_main_v5 Cert.ReferenceIdeal.Read.val_main_v4 Cert.ReferenceIdeal.Read.val_main_cst_1 Cert.ReferenceIdeal.Read.val_main_v3 Cert.ReferenceIdeal.Read.val_main_v2 Cert.ReferenceIdeal.Read.val_main_v1 Cert.ReferenceIdeal.Read.val_main_cst_0 Cert.ReferenceIdeal.Read.val_main_v0 Cert.ReferenceIdeal.Read.val_main_cst
  unfold cat3
  rfl

set_option maxRecDepth 8192 in
set_option maxHeartbeats 1000000 in
/-- Before region 0: the normalising factor, one per node, is the reference's. -/
theorem stretch0_v8 (V : Valuation Cert.KernelIdeal.τ Cert.KernelIdeal.sig (Elt Ideal)) :
    StableHlo.after (Cert.KernelIdeal.Gen.hostOps0 (F := Ideal)) V (d Cert.KernelIdeal.main_v8)
      = Cert.ReferenceIdeal.Read.val_main_v8 (F := Ideal) (V (d Cert.KernelIdeal.main_arg2)) := by
  simp (disch := decide) only [after_cons, after_nil, nullary_result', unary_result', binary_result', ternary_result',
    reshape_result', cat41_result, cat76_result, nullary_result_ne', unary_result_ne', binary_result_ne', ternary_result_ne',
    reshape_result_ne', nary_result_ne']
  unfold Cert.ReferenceIdeal.Read.val_main_v8 Cert.ReferenceIdeal.Read.val_main_v7 Cert.ReferenceIdeal.Read.val_main_v6 Cert.ReferenceIdeal.Read.val_main_cst_2 Cert.ReferenceIdeal.Read.val_main_v5 Cert.ReferenceIdeal.Read.val_main_v4 Cert.ReferenceIdeal.Read.val_main_cst_1 Cert.ReferenceIdeal.Read.val_main_v3 Cert.ReferenceIdeal.Read.val_main_v2 Cert.ReferenceIdeal.Read.val_main_v1 Cert.ReferenceIdeal.Read.val_main_cst_0 Cert.ReferenceIdeal.Read.val_main_v0 Cert.ReferenceIdeal.Read.val_main_cst
  rfl

set_option maxRecDepth 8192 in
set_option maxHeartbeats 1000000 in
/-- Before region 0: the bias as one row reads, at column `q`, the bias at `q`. -/
theorem stretch0_v42 (V : Valuation Cert.KernelIdeal.τ Cert.KernelIdeal.sig (Elt Ideal)) (q : Fin 128) :
    StableHlo.after (Cert.KernelIdeal.Gen.hostOps0 (F := Ideal)) V (d Cert.KernelIdeal.main_v42) (ix2 0 q)
      = V (d Cert.KernelIdeal.main_arg5) (ix1 q) := by
  simp (disch := decide) only [after_cons, after_nil, nullary_result', unary_result', binary_result', ternary_result',
    reshape_result', cat41_result, cat76_result, nullary_result_ne', unary_result_ne', binary_result_ne', ternary_result_ne',
    reshape_result_ne', nary_result_ne']
  exact shapeCast_a_1a_apply (V (Proc.devRef .tc Cert.KernelIdeal.main_arg5)) Cert.KernelIdeal.Gen.shapeCasts_S128_S1x128 0 q

set_option maxRecDepth 8192 in
set_option maxHeartbeats 1000000 in
/-- Between regions 0 and 1: from region 0's output at the reference's first layer, the concatenation is the
    reference's second concatenation. -/
theorem stretch1_v76 (V : Valuation Cert.KernelIdeal.τ Cert.KernelIdeal.sig (Elt Ideal))
    (a0 : (⟨Cert.ReferenceIdeal.S100000x64, .f32⟩ : BufTy).Contents (Elt Ideal)) (a1 a2 : (⟨Cert.ReferenceIdeal.S1600000, .i32⟩ : BufTy).Contents (Elt Ideal))
    (a4 : (⟨Cert.ReferenceIdeal.S192x128, .f32⟩ : BufTy).Contents (Elt Ideal)) (a5 : (⟨Cert.ReferenceIdeal.S128, .f32⟩ : BufTy).Contents (Elt Ideal))
    (h43 : V (d Cert.KernelIdeal.main_v43) = Cert.ReferenceIdeal.Read.val_main_v46 (F := Ideal) a0 a1 a2 a4 a5)
    (h8 : V (d Cert.KernelIdeal.main_v8) = Cert.ReferenceIdeal.Read.val_main_v8 (F := Ideal) a2)
    (h1 : V (d Cert.KernelIdeal.main_arg1) = a1) (h2 : V (d Cert.KernelIdeal.main_arg2) = a2) :
    StableHlo.after (Cert.KernelIdeal.Gen.hostOps1 (F := Ideal)) V (d Cert.KernelIdeal.main_v76)
      = Cert.ReferenceIdeal.Read.val_main_v79 (F := Ideal) a0 a1 a2 a4 a5 := by
  simp (disch := decide) only [after_cons, after_nil, nullary_result', unary_result', binary_result', ternary_result',
    reshape_result', cat41_result, cat76_result, nullary_result_ne', unary_result_ne', binary_result_ne', ternary_result_ne',
    reshape_result_ne', nary_result_ne']
  rw [show V (Proc.devRef .tc Cert.KernelIdeal.main_v43) = _ from h43, show V (Proc.devRef .tc Cert.KernelIdeal.main_v8) = _ from h8,
    show V (Proc.devRef .tc Cert.KernelIdeal.main_arg1) = _ from h1, show V (Proc.devRef .tc Cert.KernelIdeal.main_arg2) = _ from h2]
  unfold Cert.ReferenceIdeal.Read.val_main_v79 Cert.ReferenceIdeal.Read.val_main_v78 Cert.ReferenceIdeal.Read.val_main_v77 Cert.ReferenceIdeal.Read.val_main_v76 Cert.ReferenceIdeal.Read.val_main_cst_15 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_cst_14 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_c_13 Cert.ReferenceIdeal.Read.val_main_v65 Cert.ReferenceIdeal.Read.val_main_v64 Cert.ReferenceIdeal.Read.val_main_c_12 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_cst_11 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_c_10 Cert.ReferenceIdeal.Read.val_main_v50 Cert.ReferenceIdeal.Read.val_main_v49 Cert.ReferenceIdeal.Read.val_main_c_9 Cert.ReferenceIdeal.Read.val_main_v48 Cert.ReferenceIdeal.Read.val_main_v47
  unfold cat3
  rfl

set_option maxRecDepth 8192 in
set_option maxHeartbeats 1000000 in
/-- Between regions 0 and 1: the bias as one row reads, at column `q`, the bias at `q`. -/
theorem stretch1_v77 (V : Valuation Cert.KernelIdeal.τ Cert.KernelIdeal.sig (Elt Ideal)) (q : Fin 128) :
    StableHlo.after (Cert.KernelIdeal.Gen.hostOps1 (F := Ideal)) V (d Cert.KernelIdeal.main_v77) (ix2 0 q)
      = V (d Cert.KernelIdeal.main_arg7) (ix1 q) := by
  simp (disch := decide) only [after_cons, after_nil, nullary_result', unary_result', binary_result', ternary_result',
    reshape_result', cat41_result, cat76_result, nullary_result_ne', unary_result_ne', binary_result_ne', ternary_result_ne',
    reshape_result_ne', nary_result_ne']
  exact shapeCast_a_1a_apply (V (Proc.devRef .tc Cert.KernelIdeal.main_arg7)) Cert.KernelIdeal.Gen.shapeCasts_S128_S1x128 0 q

set_option maxHeartbeats 1000000 in
/-- Between regions 1 and 2: from region 1's output at the reference's second layer, the segment mean is the
    reference's. -/
theorem stretch2_v90 (V : Valuation Cert.KernelIdeal.τ Cert.KernelIdeal.sig (Elt Ideal))
    (a0 : (⟨Cert.ReferenceIdeal.S100000x64, .f32⟩ : BufTy).Contents (Elt Ideal)) (a1 a2 : (⟨Cert.ReferenceIdeal.S1600000, .i32⟩ : BufTy).Contents (Elt Ideal))
    (a3 : (⟨Cert.ReferenceIdeal.S100000, .i32⟩ : BufTy).Contents (Elt Ideal)) (a4 : (⟨Cert.ReferenceIdeal.S192x128, .f32⟩ : BufTy).Contents (Elt Ideal))
    (a5 : (⟨Cert.ReferenceIdeal.S128, .f32⟩ : BufTy).Contents (Elt Ideal)) (a6 : (⟨Cert.ReferenceIdeal.S384x128, .f32⟩ : BufTy).Contents (Elt Ideal))
    (a7 : (⟨Cert.ReferenceIdeal.S128, .f32⟩ : BufTy).Contents (Elt Ideal))
    (h78 : V (d Cert.KernelIdeal.main_v78) = Cert.ReferenceIdeal.Read.val_main_v84 (F := Ideal) a0 a1 a2 a4 a5 a6 a7)
    (h3 : V (d Cert.KernelIdeal.main_arg3) = a3) :
    StableHlo.after (Cert.KernelIdeal.Gen.hostOps2 (F := Ideal)) V (d Cert.KernelIdeal.main_v90)
      = Cert.ReferenceIdeal.Read.val_main_v96 (F := Ideal) a0 a1 a2 a3 a4 a5 a6 a7 := by
  after_results
  rw [show V (Proc.devRef .tc Cert.KernelIdeal.main_v78) = _ from h78, show V (Proc.devRef .tc Cert.KernelIdeal.main_arg3) = _ from h3]
  unfold Cert.ReferenceIdeal.Read.val_main_v96 Cert.ReferenceIdeal.Read.val_main_v95 Cert.ReferenceIdeal.Read.val_main_v94
    Cert.ReferenceIdeal.Read.val_main_v93 Cert.ReferenceIdeal.Read.val_main_v92 Cert.ReferenceIdeal.Read.val_main_cst_19
    Cert.ReferenceIdeal.Read.val_main_v91 Cert.ReferenceIdeal.Read.val_main_v90 Cert.ReferenceIdeal.Read.val_main_v89
    Cert.ReferenceIdeal.Read.val_main_cst_18 Cert.ReferenceIdeal.Read.val_main_v88 Cert.ReferenceIdeal.Read.val_main_v87
    Cert.ReferenceIdeal.Read.val_main_v86 Cert.ReferenceIdeal.Read.val_main_cst_17 Cert.ReferenceIdeal.Read.val_main_v85
    Cert.ReferenceIdeal.Read.val_main_cst_16
  rfl

set_option maxHeartbeats 1000000 in
/-- Between regions 1 and 2: the bias as one row reads, at column `q`, the bias at `q`. -/
theorem stretch2_v91 (V : Valuation Cert.KernelIdeal.τ Cert.KernelIdeal.sig (Elt Ideal)) (q : Fin 10) :
    StableHlo.after (Cert.KernelIdeal.Gen.hostOps2 (F := Ideal)) V (d Cert.KernelIdeal.main_v91) (ix2 0 q)
      = V (d Cert.KernelIdeal.main_arg9) (ix1 q) := by
  after_results
  exact shapeCast_a_1a_apply (V (Proc.devRef .tc Cert.KernelIdeal.main_arg9)) Cert.KernelIdeal.Gen.shapeCasts_S10_S1x10 0 q

end Cert.Hand.Bridge
-- ==== Proof.KI.Result.lean ====
/-
  What the kernel program leaves in its result array, at the exact instance: the reference's last stage.

  The program is three host stretches, each followed by a region. The host stretches are the reference's own host
  operations, so each stretch turns the reference's stages it starts from into the reference's stages it ends at. Each
  region is an affine layer computed block of rows by block of rows: at every grid point the body's payload on the
  point's blocks is, entry by entry, the layer's entry on the whole arrays — the sum over k of X(p,k)·W(k,q), plus
  b(q), rectified in the first two regions — and that is the reference's stage after its matrix product, bias
  broadcast, sum and rectification, read at the same entry. So region by region the output array is the reference's
  stage, and the result array ends at the reference's last stage of the argument arrays.
-/
import proofs.«173950_j15281493639484_1_alg».proof.Proof.KI.Run
import proofs.«173950_j15281493639484_1_alg».proof.Proof.KI.Array
import proofs.«173950_j15281493639484_1_alg».proof.Proof.ValueIdeal
import proofs.«173950_j15281493639484_1_alg».proof.Proof.HostBridge
import proofs.«173950_j15281493639484_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Hand.Spec Cert.ReferenceIdeal.Read
open scoped BigOperators

/-! ## The layer's entry depends only on the row of X, the column of W and the entry of b it reads -/

theorem linAt_congr {n n' c h : Nat} {X : (⟨2, ![n, c]⟩ : Shape).Idx → EReal} {X' : (⟨2, ![n', c]⟩ : Shape).Idx → EReal}
    {W W' : (⟨2, ![c, h]⟩ : Shape).Idx → EReal} {b b' : Fin h → EReal} {p : Fin n} {p' : Fin n'} {q : Fin h}
    (hX : ∀ k : Fin c, X (ix2 p k) = X' (ix2 p' k)) (hW : ∀ k : Fin c, W (ix2 k q) = W' (ix2 k q)) (hb : b q = b' q) :
    linAt X W b p q = linAt X' W' b' p' q := by
  unfold linAt
  rw [hb]
  exact congrArg (· + b' q) (Finset.sum_congr rfl fun k _ => by rw [hX k, hW k])

theorem linReluAt_congr {n n' c h : Nat} {X : (⟨2, ![n, c]⟩ : Shape).Idx → EReal} {X' : (⟨2, ![n', c]⟩ : Shape).Idx → EReal}
    {W W' : (⟨2, ![c, h]⟩ : Shape).Idx → EReal} {b b' : Fin h → EReal} {p : Fin n} {p' : Fin n'} {q : Fin h}
    (hX : ∀ k : Fin c, X (ix2 p k) = X' (ix2 p' k)) (hW : ∀ k : Fin c, W (ix2 k q) = W' (ix2 k q)) (hb : b q = b' q) :
    linReluAt X W b p q = linReluAt X' W' b' p' q := by
  unfold linReluAt
  rw [linAt_congr hX hW hb]

variable (m : (ℓ : Loc nD τ sig) → Buf (Elt Ideal) ℓ) (ρ : Dev nD → PrngReg) (c : Dev nD)

/-! ## Buffers an item does not write, at the intermediate boundaries -/

theorem W1_unwritten (b : Ref sig .tc) (h0 : b ∉ hostOps0_W) : W1 m ρ c (Proc.devRef .tc b) = m ((c : Thread nD τ).loc b) :=
  (StableHlo.after_of_writes_sub hostOps0 _ hostOps0_writes h0).trans rfl
theorem W2_unwritten (b : Ref sig .tc) (h0 : b ∉ hostOps0_W) (e0 : b ≠ main_v43) : W2 m ρ c (Proc.devRef .tc b) = m ((c : Thread nD τ).loc b) :=
  (W2_keep m ρ c b e0).trans (W1_unwritten m ρ c b h0)
theorem W3_unwritten (b : Ref sig .tc) (h0 : b ∉ hostOps0_W) (e0 : b ≠ main_v43) (h1 : b ∉ hostOps1_W) :
    W3 m ρ c (Proc.devRef .tc b) = m ((c : Thread nD τ).loc b) :=
  (StableHlo.after_of_writes_sub hostOps1 _ hostOps1_writes h1).trans (W2_unwritten m ρ c b h0 e0)
theorem W4_unwritten (b : Ref sig .tc) (h0 : b ∉ hostOps0_W) (e0 : b ≠ main_v43) (h1 : b ∉ hostOps1_W) (e1 : b ≠ main_v78) :
    W4 m ρ c (Proc.devRef .tc b) = m ((c : Thread nD τ).loc b) :=
  (W4_keep m ρ c b e1).trans (W3_unwritten m ρ c b h0 e0 h1)
theorem W5_unwritten (b : Ref sig .tc) (h0 : b ∉ hostOps0_W) (e0 : b ≠ main_v43) (h1 : b ∉ hostOps1_W) (e1 : b ≠ main_v78)
    (h2 : b ∉ hostOps2_W) : W5 m ρ c (Proc.devRef .tc b) = m ((c : Thread nD τ).loc b) :=
  (StableHlo.after_of_writes_sub hostOps2 _ hostOps2_writes h2).trans (W4_unwritten m ρ c b h0 e0 h1 e1)

/-! ## Region 0 -/

/-- The first host stretch leaves the reference's joined feature array in region 0's data window. -/
theorem V1_v41 : V1 m ρ c main_v41 = val_main_v41 (F := Ideal) (m ((c : Thread nD τ).loc main_arg0)) (m ((c : Thread nD τ).loc main_arg1)) (m ((c : Thread nD τ).loc main_arg2)) :=
  Cert.Hand.Bridge.stretch0_v41 (W0 m ρ c)

/-- Region 0 leaves the reference's first rectified layer in its output array. -/
theorem W2_v43 : W2 m ρ c (Proc.devRef .tc main_v43)
    = val_main_v46 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) := by
  refine (W2_arr m ρ c 3).trans (final0_of (V1 m ρ) c _ fun t r q => ?_)
  refine ((Cert.Hand.Value.pay0_apply _ _ _ r q).trans ?_).trans
    (Cert.Hand.Value.ref0_apply _ _ _ _ _ (⟨4000 * t.val + r.val, row_lt0 t r⟩ : Fin 100000) q).symm
  refine linReluAt_congr (fun k => ?_) (fun k => ?_) ?_
  · exact (iblk0_0_apply (V1 m ρ) c t r k).trans (congrFun (V1_v41 m ρ c) _)
  · exact (iblk0_1_apply (V1 m ρ) c t k q).trans (congrFun (W1_unwritten m ρ c main_arg4 (by decide)) _)
  · exact (iblk0_2_apply (V1 m ρ) c t q).trans (Cert.Hand.Bridge.stretch0_v42 (W0 m ρ c) q)

/-! ## Region 1 -/

theorem W2_v8 : W2 m ρ c (Proc.devRef .tc main_v8) = val_main_v8 (F := Ideal) (m ((c : Thread nD τ).loc main_arg2)) :=
  (W2_keep m ρ c main_v8 (by decide)).trans (Cert.Hand.Bridge.stretch0_v8 (W0 m ρ c))

/-- The second host stretch leaves the reference's second joined feature array in region 1's data window. -/
theorem V3_v76 : V3 m ρ c main_v76
    = val_main_v79 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) :=
  Cert.Hand.Bridge.stretch1_v76 (W2 m ρ c) _ _ _ _ _ (W2_v43 m ρ c) (W2_v8 m ρ c)
    (W2_unwritten m ρ c main_arg1 (by decide) (by decide)) (W2_unwritten m ρ c main_arg2 (by decide) (by decide))

/-- Region 1 leaves the reference's second rectified layer in its output array. -/
theorem W4_v78 : W4 m ρ c (Proc.devRef .tc main_v78)
    = val_main_v84 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7)) := by
  refine (W4_arr m ρ c 3).trans (final1_of (V3 m ρ) c _ fun t r q => ?_)
  refine ((Cert.Hand.Value.pay1_apply _ _ _ r q).trans ?_).trans
    (Cert.Hand.Value.ref1_apply _ _ _ _ _ _ _ (⟨4000 * t.val + r.val, row_lt1 t r⟩ : Fin 100000) q).symm
  refine linReluAt_congr (fun k => ?_) (fun k => ?_) ?_
  · exact (iblk1_0_apply (V3 m ρ) c t r k).trans (congrFun (V3_v76 m ρ c) _)
  · exact (iblk1_1_apply (V3 m ρ) c t k q).trans (congrFun (W3_unwritten m ρ c main_arg6 (by decide) (by decide) (by decide)) _)
  · exact ((iblk1_2_apply (V3 m ρ) c t q).trans (Cert.Hand.Bridge.stretch1_v77 (W2 m ρ c) q)).trans
      (congrFun (W2_unwritten m ρ c main_arg7 (by decide) (by decide)) _)

/-! ## Region 2 -/

/-- The third host stretch leaves the reference's pooled array in region 2's data window. -/
theorem V5_v90 : V5 m ρ c main_v90
    = val_main_v96 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) :=
  Cert.Hand.Bridge.stretch2_v90 (W4 m ρ c) _ _ _ _ _ _ _ _ (W4_v78 m ρ c)
    (W4_unwritten m ρ c main_arg3 (by decide) (by decide) (by decide) (by decide))

/-- The result array ends at the reference's last stage of the argument arrays. -/
theorem result_eq : W6 m ρ c (Proc.devRef .tc main_v92)
    = val_main_v100 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (W6_arr m ρ c 3).trans (final2_of (V5 m ρ) c _ fun t r q => ?_)
  refine ((Cert.Hand.Value.pay2_apply _ _ _ r q).trans ?_).trans
    (Cert.Hand.Value.ref2_apply _ _ _ _ _ _ _ _ _ _ r q).symm
  refine linAt_congr (fun k => ?_) (fun k => ?_) ?_
  · exact (iblk2_0_apply (V5 m ρ) c t r k).trans (congrFun (V5_v90 m ρ c) _)
  · exact (iblk2_1_apply (V5 m ρ) c t k q).trans (congrFun (W5_unwritten m ρ c main_arg8 (by decide) (by decide) (by decide) (by decide) (by decide)) _)
  · exact ((iblk2_2_apply (V5 m ρ) c t q).trans (Cert.Hand.Bridge.stretch2_v91 (W4 m ρ c) q)).trans
      (congrFun (W4_unwritten m ρ c main_arg9 (by decide) (by decide) (by decide) (by decide)) _)

end Cert.KernelIdeal.Hand

end
-- ==== Proof.lean ====
/-
  The certificate: a three-layer graph network whose dense layers run as kernels, against the same network in plain
  array operations.

  Both programs normalise by node degree, propagate features along the edges twice per layer (gather the sources'
  rows, add them into the destinations' rows), join the three propagated feature arrays, apply an affine layer and
  rectify; do all of that a second time; average the nodes of each graph; and apply a last affine layer. The kernel
  program runs the three affine layers as launches over blocks of rows, rounding their operands to a shorter float
  format on the way into the product; the reference uses whole-array products.

  Frames. The kernel program is host stretch, region, host stretch, region, host stretch, region; each region's launch
  terminates without a fault and changes only its output array, each host stretch writes only its own results, so every
  argument array ends as launched — at the bit-exact instance and at the exact one. The reference is a line of host
  operations.

  Values, at the exact instance. A change of float format is the identity there, a product into a zero accumulator is
  the plain sum of products, so each region's output array is, entry by entry, the sum over k of X(p,k)·W(k,q) plus
  b(q) (rectified in the first two) — the reference's stage after its product, bias and rectification. The host
  stretches are the reference's own operations. So the two results are the same function of the argument arrays; no
  property of the inputs is used.
-/
import proofs.«173950_j15281493639484_1_alg».proof.Defs
import proofs.«173950_j15281493639484_1_alg».proof.Proof.Gen.Kernel
import proofs.«173950_j15281493639484_1_alg».proof.Proof.Gen.KernelIdeal
import proofs.«173950_j15281493639484_1_alg».proof.Proof.Gen.ReferenceIdeal
import proofs.«173950_j15281493639484_1_alg».proof.Proof.Gen.Pre_finite_inputs
import proofs.«173950_j15281493639484_1_alg».proof.Proof.Gen.ReferenceIdeal.Read
import proofs.«173950_j15281493639484_1_alg».proof.Proof.K.Run
import proofs.«173950_j15281493639484_1_alg».proof.Proof.KI.Run
import proofs.«173950_j15281493639484_1_alg».proof.Proof.KI.Result
import Idealize.ShloMosaic.Adequacy
import Idealize.ShloMosaic.Init

noncomputable section

namespace Cert.Proof

open Idealize.ShloMosaic Idealize.SL.Sem

section Claims

variable [Cert.Kernel.Facts] [Cert.KernelIdeal.Facts] [Cert.ReferenceIdeal.Facts] [Cert.Pre_finite_inputs.Facts]

/-- The kernel program as printed terminates, faults nowhere and leaves its arguments as launched. -/
theorem frame_k : Cert.frame_Kernel := fun m ρ _ => Cert.Kernel.Hand.frame m ρ

/-- So does its reading at the exact instance. -/
theorem frame_ki : Cert.frame_KernelIdeal := fun m ρ _ => Cert.KernelIdeal.Hand.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the kernel
    program's argument arrays in their result arrays, and their arguments unchanged. -/
theorem algebraic : Cert.algebraic_KernelIdeal_ReferenceIdeal := by
  intro m ρ m' ρ' _ hagree
  refine ⟨fun c => Cert.KernelIdeal.Hand.W6 m ρ c (Proc.devRef .tc Cert.KernelIdeal.main_v92), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Hand.result_eq m ρ c).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
